-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 11
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .bf16 = 32 ∨ (Rect.block (s := S8192x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x8192, .f32⟩
  | .hbm, ⟨8, _⟩ => ⟨S8192x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Body0.lean ====
/-
  The projection kernel's region: what each grid point leaves in its three output blocks.

  The grid has 8 points; point `t` is handed rows `1024 t … 1024 t + 1023` of the input and the three whole weight
  matrices, and stores three whole blocks: the scaled query rows, the key rows and the value rows of its input rows.
  Every load and store is of a whole staging buffer, so each output block after the body is one payload of the input
  blocks. The body keeps nothing between points.
-/
import proofs.«141828_j90855738180063_2_alg».proof.Proof.Gen.Kernel.Launch
import proofs.«141828_j90855738180063_2_alg».proof.Proof.Gen.Kernel.Skeleton
import proofs.«141828_j90855738180063_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of this kernel uses: the whole 1024 by 1024 buffer. -/
abbrev rW : Rect S1024x1024 := Rect.unit (s := S1024x1024) ![0, 0] S1024x1024.size inb_S1024x1024_S1024x1024_0_0

/-- The scaled query block, the key block and the value block of the input block `x0`, as stored. -/
def out0_4 (x0 : Vec F S1024x1024 .f32) (x1 : Vec F S1024x1024 .bf16) : Vec F S1024x1024 .bf16 :=
  View.canon [⟨rW, k0_pay2 (View.ld x0 rW) (View.ld x1 rW)⟩]
def out0_5 (x0 : Vec F S1024x1024 .f32) (x2 : Vec F S1024x1024 .bf16) : Vec F S1024x1024 .bf16 :=
  View.canon [⟨rW, k0_pay3 (View.ld x0 rW) (View.ld x2 rW)⟩]
def out0_6 (x0 : Vec F S1024x1024 .f32) (x3 : Vec F S1024x1024 .bf16) : Vec F S1024x1024 .bf16 :=
  View.canon [⟨rW, k0_pay4 (View.ld x0 rW) (View.ld x3 rW)⟩]

/-- One whole-buffer store covers the buffer. -/
theorem coverW (p0 : Vec F S1024x1024 .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

set_option maxHeartbeats 4000000 in
/-- The body on whole staging memrefs: the inputs' stay as they were, each output's ends at its block. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 : Vec F S1024x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1)
            ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0_proj_kernel i arg1 harg1 arg2 harg2 arg3 harg3 arg4 harg4 arg5 harg5 arg6 harg6 arg7 harg7) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverW _)
  isplitl [H5]
  · iexists _; isplitr
    swap; · iexact H5
    ipureintro
    exact View.read_writes_eq_canon _ _ _ (coverW _)
  iexists _; isplitr
  swap; · iexact H6
  ipureintro
  exact View.read_writes_eq_canon _ _ _ (coverW _)

/-- The proof data of the projection region on core `c`: the arrays as the region finds them; after the body at
    point `t` each input's buffer at its block and each output's at its payload of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.AttnState.lean ====
/-
  The state the attention kernel carries from one block of keys to the next, as pure functions of the blocks.

  For one block of 1024 query rows the kernel keeps, per row, a running maximum `m`, a running denominator `l`
  and, per row and output column, a running numerator `acc`. A step takes the query block `q`, one block of keys
  `k` and the matching block of values `v`: the new maximum joins the old one with the block's row maxima, and
  `l` and `acc` are rescaled by `exp (m_old - m_new)` before the block's terms are added. Before the first block
  the state is (-∞, 0, 0); after the last block the output block is `acc / l`.
-/
import proofs.«141828_j90855738180063_2_alg».proof.Proof.Gen.Kernel.Skeleton

noncomputable section

namespace Cert.Kernel.Attn

open Idealize.ShloMosaic Idealize.SL.Sem Cert.Kernel Cert.Kernel.Gen

variable {F : FTy → Type} [FloatOps F]

/-- The carried state: running maximum, running denominator, running numerator. -/
structure St (F : FTy → Type) [FloatOps F] where
  m : Vec F S1024x1 .f32
  l : Vec F S1024x1 .f32
  acc : Vec F S1024x1024 .f32

/-- The state before the first block of keys: (-∞, 0, 0). -/
def St.init : St F := ⟨k1_pay4, k1_pay5, k1_pay6⟩

/-- One block of keys `k` and values `v` against the query block `q`. -/
def St.step (q k v : Vec F S1024x1024 .bf16) (s : St F) : St F :=
  ⟨k1_pay2 (k1_pay8 q k s.m), k1_pay11 q k s.m s.m s.l, k1_pay1 (k1_pay12 q k s.m s.m s.acc v)⟩

/-- The output block once every block of keys has been seen: numerator over denominator. -/
def St.out (s : St F) : Vec F S1024x1024 .f32 := k1_pay3 s.acc s.l

/-- The state after the first `n` blocks of keys `kb 0, …, kb (n-1)` with values `vb 0, …, vb (n-1)`. -/
def stAfter (q : Vec F S1024x1024 .bf16) (kb vb : ℕ → Vec F S1024x1024 .bf16) : ℕ → St F
  | 0 => St.init
  | n + 1 => St.step q (kb n) (vb n) (stAfter q kb vb n)

theorem stAfter_zero (q : Vec F S1024x1024 .bf16) (kb vb : ℕ → Vec F S1024x1024 .bf16) : stAfter q kb vb 0 = St.init := rfl

theorem stAfter_succ (q : Vec F S1024x1024 .bf16) (kb vb : ℕ → Vec F S1024x1024 .bf16) (n : ℕ) :
    stAfter q kb vb (n + 1) = St.step q (kb n) (vb n) (stAfter q kb vb n) := rfl

/-- The three projected blocks of one block `xb` of 1024 rows of the input: queries (scaled), keys, values. -/
def qBlk (xb : Vec F S1024x1024 .f32) (w : Vec F S1024x1024 .bf16) : Vec F S1024x1024 .bf16 := k0_pay2 xb w
def kBlk (xb : Vec F S1024x1024 .f32) (w : Vec F S1024x1024 .bf16) : Vec F S1024x1024 .bf16 := k0_pay3 xb w
def vBlk (xb : Vec F S1024x1024 .f32) (w : Vec F S1024x1024 .bf16) : Vec F S1024x1024 .bf16 := k0_pay4 xb w

end Cert.Kernel.Attn

end
-- ==== Proof.K.Body1.lean ====
/-
  The attention kernel's region: what each grid point leaves in its scratch buffers and its output block.

  The grid is 8 rows of 8 points: row `qi` is one block of 1024 query rows, point `ki` of the row one block of 1024
  keys and values. Three scratch buffers carry the state (running maximum, denominator, numerator) from point to point
  of a row: at the first point of a row they are reset, at every point they take one step, and at the last point of a
  row the output block is stored as numerator over denominator. Every load and store is of a whole buffer, so the
  contents after the body are payloads of the contents before it.
-/
import proofs.«141828_j90855738180063_2_alg».proof.Proof.Gen.Kernel.Launch
import proofs.«141828_j90855738180063_2_alg».proof.Proof.Gen.Kernel.Skeleton
import proofs.«141828_j90855738180063_2_alg».proof.Proof.Gen.Kernel.Points
import proofs.«141828_j90855738180063_2_alg».proof.Proof.K.AttnState
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Attn

variable (V : (c : Dev nD) → (b : Ref sig .tc) → Buf (Elt F) ((c : Thread nD τ).loc b))

/-- The first conditional of the body: this is the first block of keys of a row of the grid. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional: this is the last block of keys of a row of the grid. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The body's triple, in each of its three cases -/

set_option maxHeartbeats 4000000 in
theorem run1_A (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc0 : cond1_0 i) (hc1 : ¬cond1_1 i)
    (q k v : Vec F S1024x1024 .bf16) (xo : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare xo ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare q ∗ owns (c : Thread nD τ) arg3 fullShare k ∗ owns (c : Thread nD τ) arg4 fullShare v
            ∗ owns (c : Thread nD τ) arg5 fullShare xo ∗ owns (c : Thread nD τ) arg6 fullShare (St.step q k v St.init).m
            ∗ owns (c : Thread nD τ) arg7 fullShare (St.step q k v St.init).l ∗ owns (c : Thread nD τ) arg8 fullShare (St.step q k v St.init).acc) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  isplitl [H7]
  · iexists _; isplitr
    swap; · iexact H7
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  iexists _; isplitr
  swap; · iexact H8
  ipureintro
  have hzW : (![0, 0] : Fin S1024x1024.rank → Nat) = fun _ => 0 := by funext a; fin_cases a <;> rfl
  have hzC : (![0, 0] : Fin S1024x1.rank → Nat) = fun _ => 0 := by funext a; fin_cases a <;> rfl
  rw [View.read_writes_eq_canon _ _ _ (View.cover_of_tiledL _ S1024x1024.size (by sl_kernel_rfl))]
  sl_unfold_run_names
  rw [View.canon_cons_unit_zero hzW]
  simp only [View.readAt_eq_ld, View.ld_unit_zero (S := S1024x1024) hzW, View.ld_unit_zero (S := S1024x1) hzC,
    View.readCov_unit_zero (S := S1024x1024) _ hzW, View.readCov_unit_zero (S := S1024x1) _ hzC, hf6, hf7, hf8]
  rfl

set_option maxHeartbeats 4000000 in
theorem run1_C (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc0 : ¬cond1_0 i) (hc1 : cond1_1 i)
    (q k v : Vec F S1024x1024 .bf16) (s : St F) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ owns (c : Thread nD τ) arg6 fullShare s.m ∗ owns (c : Thread nD τ) arg7 fullShare s.l
        ∗ owns (c : Thread nD τ) arg8 fullShare s.acc
        ∗ (iprop(owns (c : Thread nD τ) arg2 fullShare q ∗ owns (c : Thread nD τ) arg3 fullShare k ∗ owns (c : Thread nD τ) arg4 fullShare v
            ∗ owns (c : Thread nD τ) arg5 fullShare (St.step q k v s).out ∗ owns (c : Thread nD τ) arg6 fullShare (St.step q k v s).m
            ∗ owns (c : Thread nD τ) arg7 fullShare (St.step q k v s).l ∗ owns (c : Thread nD τ) arg8 fullShare (St.step q k v s).acc) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%d5, %f5, %hf5, H5⟩, ⟨%f6, %hf6, H6⟩, ⟨%f7, %hf7, H7⟩, ⟨%f8, %hf8, H8⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1024.size (by sl_kernel_rfl))]
    sl_unfold_run_names
    rw [View.canon_cons_unit_zero hzW]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  isplitl [H6]
  · iexists _; isplitr
    swap; · iexact H6
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  isplitl [H7]
  · iexists _; isplitr
    swap; · iexact H7
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  iexists _; isplitr
  swap; · iexact H8
  ipureintro
  have hzW : (![0, 0] : Fin S1024x1024.rank → Nat) = fun _ => 0 := by funext a; fin_cases a <;> rfl
  have hzC : (![0, 0] : Fin S1024x1.rank → Nat) = fun _ => 0 := by funext a; fin_cases a <;> rfl
  rw [View.read_writes_eq_canon _ _ _ (View.cover_of_tiledL _ S1024x1024.size (by sl_kernel_rfl))]
  sl_unfold_run_names
  rw [View.canon_cons_unit_zero hzW]
  simp only [View.readAt_eq_ld, View.ld_unit_zero (S := S1024x1024) hzW, View.ld_unit_zero (S := S1024x1) hzC,
    View.readCov_unit_zero (S := S1024x1024) _ hzW, View.readCov_unit_zero (S := S1024x1) _ hzC, hf6, hf7, hf8]
  rfl

set_option maxHeartbeats 4000000 in
theorem run1_B (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc0 : ¬cond1_0 i) (hc1 : ¬cond1_1 i)
    (q k v : Vec F S1024x1024 .bf16) (xo : Vec F S1024x1024 .f32) (s : St F) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare xo ∗ owns (c : Thread nD τ) arg6 fullShare s.m ∗ owns (c : Thread nD τ) arg7 fullShare s.l
        ∗ owns (c : Thread nD τ) arg8 fullShare s.acc
        ∗ (iprop(owns (c : Thread nD τ) arg2 fullShare q ∗ owns (c : Thread nD τ) arg3 fullShare k ∗ owns (c : Thread nD τ) arg4 fullShare v
            ∗ owns (c : Thread nD τ) arg5 fullShare xo ∗ owns (c : Thread nD τ) arg6 fullShare (St.step q k v s).m
            ∗ owns (c : Thread nD τ) arg7 fullShare (St.step q k v s).l ∗ owns (c : Thread nD τ) arg8 fullShare (St.step q k v s).acc) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  isplitl [H7]
  · iexists _; isplitr
    swap; · iexact H7
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  iexists _; isplitr
  swap; · iexact H8
  ipureintro
  have hzW : (![0, 0] : Fin S1024x1024.rank → Nat) = fun _ => 0 := by funext a; fin_cases a <;> rfl
  have hzC : (![0, 0] : Fin S1024x1.rank → Nat) = fun _ => 0 := by funext a; fin_cases a <;> rfl
  rw [View.read_writes_eq_canon _ _ _ (View.cover_of_tiledL _ S1024x1024.size (by sl_kernel_rfl))]
  sl_unfold_run_names
  rw [View.canon_cons_unit_zero hzW]
  simp only [View.readAt_eq_ld, View.ld_unit_zero (S := S1024x1024) hzW, View.ld_unit_zero (S := S1024x1) hzC,
    View.readCov_unit_zero (S := S1024x1024) _ hzW, View.readCov_unit_zero (S := S1024x1) _ hzC, hf6, hf7, hf8]
  rfl

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block of keys of a row the body stores nothing into the output block, -/
theorem idleAt1_3 : ∀ t : Fin cfg1.N, ¬cond1_1 (grid1.coords t) → cfg1.idle 3 (grid1.coords t) = true := by decide +kernel
/-- and the pipeline does not write it back there. -/
theorem noFlush1_3 : ∀ t : Fin cfg1.N, ¬cond1_1 (grid1.coords t) → (cfg1.win 3).flush t = false := by decide +kernel
/-- At the last block of keys of a row the body stores the output block. -/
theorem liveAt1_3 : ∀ t : Fin cfg1.N, cond1_1 (grid1.coords t) → cfg1.idle 3 (grid1.coords t) = false := by decide +kernel

/-! ## The carried state, point by point -/

/-- The state the scratch buffers hold after the point of position `n`: one step from the initial state at the first
    block of keys of a row of the grid, one step from the previous point's state elsewhere. -/
def stS (c : Dev nD) : (n : ℕ) → n < cfg1.N → St F
  | 0, hn => St.step (iblk1 V c 0 ⟨0, hn⟩) (iblk1 V c 1 ⟨0, hn⟩) (iblk1 V c 2 ⟨0, hn⟩) St.init
  | n + 1, hn => St.step (iblk1 V c 0 ⟨n + 1, hn⟩) (iblk1 V c 1 ⟨n + 1, hn⟩) (iblk1 V c 2 ⟨n + 1, hn⟩)
      (if (n + 1) % 8 = 0 then St.init else stS c n (Nat.lt_of_succ_lt hn))

theorem stS_succ (c : Dev nD) (n : ℕ) (hn : n + 1 < cfg1.N) :
    stS V c (n + 1) hn = St.step (iblk1 V c 0 ⟨n + 1, hn⟩) (iblk1 V c 1 ⟨n + 1, hn⟩) (iblk1 V c 2 ⟨n + 1, hn⟩)
      (if (n + 1) % 8 = 0 then St.init else stS V c n (Nat.lt_of_succ_lt hn)) := rfl

theorem stS_first (c : Dev nD) (t : Fin cfg1.N) (h0 : t.val % 8 = 0) :
    stS V c t.val t.isLt = St.step (iblk1 V c 0 t) (iblk1 V c 1 t) (iblk1 V c 2 t) St.init := by
  obtain ⟨n, hn⟩ := t
  cases n with
  | zero => rfl
  | succ n => show stS V c (n + 1) hn = _; rw [stS_succ, if_pos h0]

theorem stS_next (c : Dev nD) (t : Fin cfg1.N) (h0 : t.val % 8 ≠ 0) :
    stS V c t.val t.isLt = St.step (iblk1 V c 0 t) (iblk1 V c 1 t) (iblk1 V c 2 t)
      (stS V c (t.val - 1) (Nat.lt_of_le_of_lt (Nat.sub_le _ _) t.isLt)) := by
  obtain ⟨n, hn⟩ := t
  cases n with
  | zero => exact absurd (Nat.zero_mod 8) h0
  | succ n =>
    show stS V c (n + 1) hn = St.step (iblk1 V c 0 ⟨n + 1, hn⟩) (iblk1 V c 1 ⟨n + 1, hn⟩) (iblk1 V c 2 ⟨n + 1, hn⟩) (stS V c n (Nat.lt_of_succ_lt hn))
    rw [stS_succ, if_neg h0]

/-! ## The invariant -/

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- What the body may use besides the windows, with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ d, owns (c : Thread nD τ) scM1_0 fullShare d) ∗ (∃ d, owns (c : Thread nD τ) scM1_1 fullShare d)
      ∗ (∃ d, owns (c : Thread nD τ) scM1_2 fullShare d)) ∗ (∃ r, prngReg c r)) := by
  unfold Pipeline.ΦA; rw [scopedRest1_eq]; simp only [scM1_0, scM1_1, scM1_2, owns_whole]; try rfl

/-- The region's invariant before position `n`: before the first point every scratch buffer at anything; afterwards
    the three carried scratch buffers at the state the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (stS V c n hn).m ∗ owns (c : Thread nD τ) scM1_1 fullShare (stS V c n hn).l
      ∗ owns (c : Thread nD τ) scM1_2 fullShare (stS V c n hn).acc) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (stS V c n hn).m ∗ owns (c : Thread nD τ) scM1_1 fullShare (stS V c n hn).l
      ∗ owns (c : Thread nD τ) scM1_2 fullShare (stS V c n hn).acc) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (stS V c (n - 1) (by omega)).m ∗ owns (c : Thread nD τ) scM1_1 fullShare (stS V c (n - 1) (by omega)).l
      ∗ owns (c : Thread nD τ) scM1_2 fullShare (stS V c (n - 1) (by omega)).acc) ∗ (∃ r, prngReg c r)) := by
  cases n with
  | zero => exact absurd rfl hz
  | succ n => rfl

/-! ## The proof data -/

/-- The proof data of the attention region on core `c`: the arrays as the region finds them; after the body at point
    `t` each input's buffer at its block and the output's at numerator over denominator of the state after the point
    (read only where the block is written back: after the last block of keys of a row). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stS V c t.val t.isLt).out
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stS V c t.val t.isLt).out := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point, by its place in its row of the grid: at the first block of keys the scratch buffers are
    handed over at anything and reset; elsewhere they hold the state the point before left; at the last block of keys
    the output block is stored, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · have h1 : ¬ t.val % 8 = 7 := by omega
    rw [Dat.leavesExact_idle (dat1 V c) 3 t (idleAt1_3 t (fun h => h1 ((hcond1_1 t).mp h))) (noFlush1_3 t (fun h => h1 ((hcond1_1 t).mp h)))]
    rw [stS_first V c t h0]
    by_cases hz : t.val = 0
    · rw [PhiS_castSucc V c t, PhiS_zero V c _ _ hz, PhiA1_eq]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply (run1_A c Set.univ (grid1.coords t) _ _ _ _ _ _ _ _ _ _ _ _ _ _ ((hcond1_0 t).mpr h0) (fun h => h1 ((hcond1_1 t).mp h))
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply (run1_A c Set.univ (grid1.coords t) _ _ _ _ _ _ _ _ _ _ _ _ _ _ ((hcond1_0 t).mpr h0) (fun h => h1 ((hcond1_1 t).mp h))
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [stS_next V c t h0]
    rw [PhiS_castSucc V c t, PhiS_pos V c _ _ hz]
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3, stS_next V c t h0]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply (run1_C c Set.univ (grid1.coords t) _ _ _ _ _ _ _ _ _ _ _ _ _ _ (fun h => h0 ((hcond1_0 t).mp h)) ((hcond1_1 t).mpr h1)
        (iblk1 V c 0 t) (iblk1 V c 1 t) (iblk1 V c 2 t) (stS V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply (run1_B c Set.univ (grid1.coords t) _ _ _ _ _ _ _ _ _ _ _ _ _ _ (fun h => h0 ((hcond1_0 t).mp h)) (fun h => h1 ((hcond1_1 t).mp h))
        (iblk1 V c 0 t) (iblk1 V c 1 t) (iblk1 V c 2 t) ((dat1 V c).before 3 t d3) (stS V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives everything back: the carried contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨B1, B2, B3, B4, B5, B6, B7, B8, B9, B10, B11, HS0, HS1, HS2⟩, Hg⟩
  isplitl [B1 B2 B3 B4 B5 B6 B7 B8 B9 B10 B11 HS0 HS1 HS2]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [HS0]; · iexists _; iexact HS0
    isplitl [HS1]; · iexists _; iexact HS1
    iexists _; iexact HS2
  iexact Hg

end Cert.Kernel.Fr

end
-- ==== Proof.K.Run.lean ====
/-
  The whole program as a run: three conversions on the host, the projection region, the attention region.

  The contents of every buffer at each boundary are a fold from the launch memory: the host's three conversions, then
  the projection region's three output arrays at what its write-backs leave, then the attention region's output array
  at what its write-backs leave. Every weakly fair execution terminates, and the final memory holds, at every unscoped
  buffer, the last fold; the four arguments are written by nothing and end as launched.
-/
import proofs.«141828_j90855738180063_2_alg».proof.Proof.Gen.Kernel.Launch
import proofs.«141828_j90855738180063_2_alg».proof.Proof.Gen.Kernel.Skeleton
import proofs.«141828_j90855738180063_2_alg».proof.Proof.Gen.Kernel.Points
import proofs.«141828_j90855738180063_2_alg».proof.Proof.K.Body0
import proofs.«141828_j90855738180063_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host's three conversions of the weights (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation writes an argument. -/
theorem W1_of_arg (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The first argument is an input window of the projection region: never written. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide) (by decide) (by decide)
    _ = m ((c : Thread nD τ).loc main_arg0) := rfl
/-- The weights are read by the host only: no region stages them. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_arg m ρ c main_arg2 (by decide) (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide) (by decide) (by decide)
    _ = m ((c : Thread nD τ).loc main_arg3) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The projection region over the thread state: entered from every unscoped buffer after the host's conversions, left
    with its three output arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from the projection region's exit contents, left with its
    output array at what its write-backs leave. The carried scratch enters the invariant at anything and is
    given back at anything. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine Idealize.SL.BI.BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, and the final
    memory holds the last fold at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The result array after the run: what the attention region's write-backs leave. -/
theorem result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Fr

end
-- ==== Proof.KI.Body0.lean ====
/-
  The projection kernel's region: what each grid point leaves in its three output blocks.

  The grid has 8 points; point `t` is handed rows `1024 t … 1024 t + 1023` of the input and the three whole weight
  matrices, and stores three whole blocks: the scaled query rows, the key rows and the value rows of its input rows.
  Every load and store is of a whole staging buffer, so each output block after the body is one payload of the input
  blocks. The body keeps nothing between points.
-/
import proofs.«141828_j90855738180063_2_alg».proof.Proof.Gen.KernelIdeal.Launch
import proofs.«141828_j90855738180063_2_alg».proof.Proof.Gen.KernelIdeal.Skeleton
import proofs.«141828_j90855738180063_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of this kernel uses: the whole 1024 by 1024 buffer. -/
abbrev rW : Rect S1024x1024 := Rect.unit (s := S1024x1024) ![0, 0] S1024x1024.size inb_S1024x1024_S1024x1024_0_0

/-- The scaled query block, the key block and the value block of the input block `x0`, as stored. -/
def out0_4 (x0 : Vec F S1024x1024 .f32) (x1 : Vec F S1024x1024 .bf16) : Vec F S1024x1024 .bf16 :=
  View.canon [⟨rW, k0_pay2 (View.ld x0 rW) (View.ld x1 rW)⟩]
def out0_5 (x0 : Vec F S1024x1024 .f32) (x2 : Vec F S1024x1024 .bf16) : Vec F S1024x1024 .bf16 :=
  View.canon [⟨rW, k0_pay3 (View.ld x0 rW) (View.ld x2 rW)⟩]
def out0_6 (x0 : Vec F S1024x1024 .f32) (x3 : Vec F S1024x1024 .bf16) : Vec F S1024x1024 .bf16 :=
  View.canon [⟨rW, k0_pay4 (View.ld x0 rW) (View.ld x3 rW)⟩]

/-- One whole-buffer store covers the buffer. -/
theorem coverW (p0 : Vec F S1024x1024 .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

set_option maxHeartbeats 4000000 in
/-- The body on whole staging memrefs: the inputs' stay as they were, each output's ends at its block. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 : Vec F S1024x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1)
            ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0_proj_kernel i arg1 harg1 arg2 harg2 arg3 harg3 arg4 harg4 arg5 harg5 arg6 harg6 arg7 harg7) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverW _)
  isplitl [H5]
  · iexists _; isplitr
    swap; · iexact H5
    ipureintro
    exact View.read_writes_eq_canon _ _ _ (coverW _)
  iexists _; isplitr
  swap; · iexact H6
  ipureintro
  exact View.read_writes_eq_canon _ _ _ (coverW _)

/-- The proof data of the projection region on core `c`: the arrays as the region finds them; after the body at
    point `t` each input's buffer at its block and each output's at its payload of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.AttnState.lean ====
/-
  The state the attention kernel carries from one block of keys to the next, as pure functions of the blocks.

  For one block of 1024 query rows the kernel keeps, per row, a running maximum `m`, a running denominator `l`
  and, per row and output column, a running numerator `acc`. A step takes the query block `q`, one block of keys
  `k` and the matching block of values `v`: the new maximum joins the old one with the block's row maxima, and
  `l` and `acc` are rescaled by `exp (m_old - m_new)` before the block's terms are added. Before the first block
  the state is (-∞, 0, 0); after the last block the output block is `acc / l`.
-/
import proofs.«141828_j90855738180063_2_alg».proof.Proof.Gen.KernelIdeal.Skeleton

noncomputable section

namespace Cert.KernelIdeal.Attn

open Idealize.ShloMosaic Idealize.SL.Sem Cert.KernelIdeal Cert.KernelIdeal.Gen

variable {F : FTy → Type} [FloatOps F]

/-- The carried state: running maximum, running denominator, running numerator. -/
structure St (F : FTy → Type) [FloatOps F] where
  m : Vec F S1024x1 .f32
  l : Vec F S1024x1 .f32
  acc : Vec F S1024x1024 .f32

/-- The state before the first block of keys: (-∞, 0, 0). -/
def St.init : St F := ⟨k1_pay4, k1_pay5, k1_pay6⟩

/-- One block of keys `k` and values `v` against the query block `q`. -/
def St.step (q k v : Vec F S1024x1024 .bf16) (s : St F) : St F :=
  ⟨k1_pay2 (k1_pay8 q k s.m), k1_pay11 q k s.m s.m s.l, k1_pay1 (k1_pay12 q k s.m s.m s.acc v)⟩

/-- The output block once every block of keys has been seen: numerator over denominator. -/
def St.out (s : St F) : Vec F S1024x1024 .f32 := k1_pay3 s.acc s.l

/-- The state after the first `n` blocks of keys `kb 0, …, kb (n-1)` with values `vb 0, …, vb (n-1)`. -/
def stAfter (q : Vec F S1024x1024 .bf16) (kb vb : ℕ → Vec F S1024x1024 .bf16) : ℕ → St F
  | 0 => St.init
  | n + 1 => St.step q (kb n) (vb n) (stAfter q kb vb n)

theorem stAfter_zero (q : Vec F S1024x1024 .bf16) (kb vb : ℕ → Vec F S1024x1024 .bf16) : stAfter q kb vb 0 = St.init := rfl

theorem stAfter_succ (q : Vec F S1024x1024 .bf16) (kb vb : ℕ → Vec F S1024x1024 .bf16) (n : ℕ) :
    stAfter q kb vb (n + 1) = St.step q (kb n) (vb n) (stAfter q kb vb n) := rfl

/-- The three projected blocks of one block `xb` of 1024 rows of the input: queries (scaled), keys, values. -/
def qBlk (xb : Vec F S1024x1024 .f32) (w : Vec F S1024x1024 .bf16) : Vec F S1024x1024 .bf16 := k0_pay2 xb w
def kBlk (xb : Vec F S1024x1024 .f32) (w : Vec F S1024x1024 .bf16) : Vec F S1024x1024 .bf16 := k0_pay3 xb w
def vBlk (xb : Vec F S1024x1024 .f32) (w : Vec F S1024x1024 .bf16) : Vec F S1024x1024 .bf16 := k0_pay4 xb w

end Cert.KernelIdeal.Attn

end
-- ==== Proof.KI.Body1.lean ====
/-
  The attention kernel's region: what each grid point leaves in its scratch buffers and its output block.

  The grid is 8 rows of 8 points: row `qi` is one block of 1024 query rows, point `ki` of the row one block of 1024
  keys and values. Three scratch buffers carry the state (running maximum, denominator, numerator) from point to point
  of a row: at the first point of a row they are reset, at every point they take one step, and at the last point of a
  row the output block is stored as numerator over denominator. Every load and store is of a whole buffer, so the
  contents after the body are payloads of the contents before it.
-/
import proofs.«141828_j90855738180063_2_alg».proof.Proof.Gen.KernelIdeal.Launch
import proofs.«141828_j90855738180063_2_alg».proof.Proof.Gen.KernelIdeal.Skeleton
import proofs.«141828_j90855738180063_2_alg».proof.Proof.Gen.KernelIdeal.Points
import proofs.«141828_j90855738180063_2_alg».proof.Proof.AttnState
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Attn

variable (V : (c : Dev nD) → (b : Ref sig .tc) → Buf (Elt F) ((c : Thread nD τ).loc b))

/-- The first conditional of the body: this is the first block of keys of a row of the grid. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional: this is the last block of keys of a row of the grid. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The body's triple, in each of its three cases -/

set_option maxHeartbeats 4000000 in
theorem run1_A (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc0 : cond1_0 i) (hc1 : ¬cond1_1 i)
    (q k v : Vec F S1024x1024 .bf16) (xo : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare xo ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare q ∗ owns (c : Thread nD τ) arg3 fullShare k ∗ owns (c : Thread nD τ) arg4 fullShare v
            ∗ owns (c : Thread nD τ) arg5 fullShare xo ∗ owns (c : Thread nD τ) arg6 fullShare (St.step q k v St.init).m
            ∗ owns (c : Thread nD τ) arg7 fullShare (St.step q k v St.init).l ∗ owns (c : Thread nD τ) arg8 fullShare (St.step q k v St.init).acc) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  isplitl [H7]
  · iexists _; isplitr
    swap; · iexact H7
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  iexists _; isplitr
  swap; · iexact H8
  ipureintro
  have hzW : (![0, 0] : Fin S1024x1024.rank → Nat) = fun _ => 0 := by funext a; fin_cases a <;> rfl
  have hzC : (![0, 0] : Fin S1024x1.rank → Nat) = fun _ => 0 := by funext a; fin_cases a <;> rfl
  rw [View.read_writes_eq_canon _ _ _ (View.cover_of_tiledL _ S1024x1024.size (by sl_kernel_rfl))]
  sl_unfold_run_names
  rw [View.canon_cons_unit_zero hzW]
  simp only [View.readAt_eq_ld, View.ld_unit_zero (S := S1024x1024) hzW, View.ld_unit_zero (S := S1024x1) hzC,
    View.readCov_unit_zero (S := S1024x1024) _ hzW, View.readCov_unit_zero (S := S1024x1) _ hzC, hf6, hf7, hf8]
  rfl

set_option maxHeartbeats 4000000 in
theorem run1_C (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc0 : ¬cond1_0 i) (hc1 : cond1_1 i)
    (q k v : Vec F S1024x1024 .bf16) (s : St F) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ owns (c : Thread nD τ) arg6 fullShare s.m ∗ owns (c : Thread nD τ) arg7 fullShare s.l
        ∗ owns (c : Thread nD τ) arg8 fullShare s.acc
        ∗ (iprop(owns (c : Thread nD τ) arg2 fullShare q ∗ owns (c : Thread nD τ) arg3 fullShare k ∗ owns (c : Thread nD τ) arg4 fullShare v
            ∗ owns (c : Thread nD τ) arg5 fullShare (St.step q k v s).out ∗ owns (c : Thread nD τ) arg6 fullShare (St.step q k v s).m
            ∗ owns (c : Thread nD τ) arg7 fullShare (St.step q k v s).l ∗ owns (c : Thread nD τ) arg8 fullShare (St.step q k v s).acc) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%d5, %f5, %hf5, H5⟩, ⟨%f6, %hf6, H6⟩, ⟨%f7, %hf7, H7⟩, ⟨%f8, %hf8, H8⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1024.size (by sl_kernel_rfl))]
    sl_unfold_run_names
    rw [View.canon_cons_unit_zero hzW]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  isplitl [H6]
  · iexists _; isplitr
    swap; · iexact H6
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  isplitl [H7]
  · iexists _; isplitr
    swap; · iexact H7
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  iexists _; isplitr
  swap; · iexact H8
  ipureintro
  have hzW : (![0, 0] : Fin S1024x1024.rank → Nat) = fun _ => 0 := by funext a; fin_cases a <;> rfl
  have hzC : (![0, 0] : Fin S1024x1.rank → Nat) = fun _ => 0 := by funext a; fin_cases a <;> rfl
  rw [View.read_writes_eq_canon _ _ _ (View.cover_of_tiledL _ S1024x1024.size (by sl_kernel_rfl))]
  sl_unfold_run_names
  rw [View.canon_cons_unit_zero hzW]
  simp only [View.readAt_eq_ld, View.ld_unit_zero (S := S1024x1024) hzW, View.ld_unit_zero (S := S1024x1) hzC,
    View.readCov_unit_zero (S := S1024x1024) _ hzW, View.readCov_unit_zero (S := S1024x1) _ hzC, hf6, hf7, hf8]
  rfl

set_option maxHeartbeats 4000000 in
theorem run1_B (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc0 : ¬cond1_0 i) (hc1 : ¬cond1_1 i)
    (q k v : Vec F S1024x1024 .bf16) (xo : Vec F S1024x1024 .f32) (s : St F) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare xo ∗ owns (c : Thread nD τ) arg6 fullShare s.m ∗ owns (c : Thread nD τ) arg7 fullShare s.l
        ∗ owns (c : Thread nD τ) arg8 fullShare s.acc
        ∗ (iprop(owns (c : Thread nD τ) arg2 fullShare q ∗ owns (c : Thread nD τ) arg3 fullShare k ∗ owns (c : Thread nD τ) arg4 fullShare v
            ∗ owns (c : Thread nD τ) arg5 fullShare xo ∗ owns (c : Thread nD τ) arg6 fullShare (St.step q k v s).m
            ∗ owns (c : Thread nD τ) arg7 fullShare (St.step q k v s).l ∗ owns (c : Thread nD τ) arg8 fullShare (St.step q k v s).acc) -∗ K ⟨⟩))
      ⊢ wp frame (wpE (defs₀ (F := F)) Variants.none c none) E (cc1_attn_kernel i arg2 harg2 arg3 harg3 arg4 harg4 arg5 harg5 arg6 harg6 arg7 harg7 arg8 harg8) K := by
  simp only [cc1_attn_kernel_eq_skeleton]; unfold cc1_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  isplitl [H7]
  · iexists _; isplitr
    swap; · iexact H7
    ipureintro
    have hzW : (![0, 0] : Fin S1024x1024.rank → Nat) = fun _ => 0 := by funext a; fin_cases a <;> rfl
    have hzC : (![0, 0] : Fin S1024x1.rank → Nat) = fun _ => 0 := by funext a; fin_cases a <;> rfl
    rw [View.read_writes_eq_canon _ _ _ (View.cover_of_tiledL _ S1024x1.size (by sl_kernel_rfl))]
    sl_unfold_run_names
    rw [View.canon_cons_unit_zero hzC]
    simp only [View.readAt_eq_ld, View.ld_unit_zero (S := S1024x1024) hzW, View.ld_unit_zero (S := S1024x1) hzC,
      View.readCov_unit_zero (S := S1024x1024) _ hzW, View.readCov_unit_zero (S := S1024x1) _ hzC, hf6, hf7, hf8]
    rfl
  iexists _; isplitr
  swap; · iexact H8
  ipureintro
  have hzW : (![0, 0] : Fin S1024x1024.rank → Nat) = fun _ => 0 := by funext a; fin_cases a <;> rfl
  have hzC : (![0, 0] : Fin S1024x1.rank → Nat) = fun _ => 0 := by funext a; fin_cases a <;> rfl
  rw [View.read_writes_eq_canon _ _ _ (View.cover_of_tiledL _ S1024x1024.size (by sl_kernel_rfl))]
  sl_unfold_run_names
  rw [View.canon_cons_unit_zero hzW]
  simp only [View.readAt_eq_ld, View.ld_unit_zero (S := S1024x1024) hzW, View.ld_unit_zero (S := S1024x1) hzC,
    View.readCov_unit_zero (S := S1024x1024) _ hzW, View.readCov_unit_zero (S := S1024x1) _ hzC, hf6, hf7, hf8]
  rfl

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block of keys of a row the body stores nothing into the output block, -/
theorem idleAt1_3 : ∀ t : Fin cfg1.N, ¬cond1_1 (grid1.coords t) → cfg1.idle 3 (grid1.coords t) = true := by decide +kernel
/-- and the pipeline does not write it back there. -/
theorem noFlush1_3 : ∀ t : Fin cfg1.N, ¬cond1_1 (grid1.coords t) → (cfg1.win 3).flush t = false := by decide +kernel
/-- At the last block of keys of a row the body stores the output block. -/
theorem liveAt1_3 : ∀ t : Fin cfg1.N, cond1_1 (grid1.coords t) → cfg1.idle 3 (grid1.coords t) = false := by decide +kernel

/-! ## The carried state, point by point -/

/-- The state the scratch buffers hold after the point of position `n`: one step from the initial state at the first
    block of keys of a row of the grid, one step from the previous point's state elsewhere. -/
def stS (c : Dev nD) : (n : ℕ) → n < cfg1.N → St F
  | 0, hn => St.step (iblk1 V c 0 ⟨0, hn⟩) (iblk1 V c 1 ⟨0, hn⟩) (iblk1 V c 2 ⟨0, hn⟩) St.init
  | n + 1, hn => St.step (iblk1 V c 0 ⟨n + 1, hn⟩) (iblk1 V c 1 ⟨n + 1, hn⟩) (iblk1 V c 2 ⟨n + 1, hn⟩)
      (if (n + 1) % 8 = 0 then St.init else stS c n (Nat.lt_of_succ_lt hn))

theorem stS_succ (c : Dev nD) (n : ℕ) (hn : n + 1 < cfg1.N) :
    stS V c (n + 1) hn = St.step (iblk1 V c 0 ⟨n + 1, hn⟩) (iblk1 V c 1 ⟨n + 1, hn⟩) (iblk1 V c 2 ⟨n + 1, hn⟩)
      (if (n + 1) % 8 = 0 then St.init else stS V c n (Nat.lt_of_succ_lt hn)) := rfl

theorem stS_first (c : Dev nD) (t : Fin cfg1.N) (h0 : t.val % 8 = 0) :
    stS V c t.val t.isLt = St.step (iblk1 V c 0 t) (iblk1 V c 1 t) (iblk1 V c 2 t) St.init := by
  obtain ⟨n, hn⟩ := t
  cases n with
  | zero => rfl
  | succ n => show stS V c (n + 1) hn = _; rw [stS_succ, if_pos h0]

theorem stS_next (c : Dev nD) (t : Fin cfg1.N) (h0 : t.val % 8 ≠ 0) :
    stS V c t.val t.isLt = St.step (iblk1 V c 0 t) (iblk1 V c 1 t) (iblk1 V c 2 t)
      (stS V c (t.val - 1) (Nat.lt_of_le_of_lt (Nat.sub_le _ _) t.isLt)) := by
  obtain ⟨n, hn⟩ := t
  cases n with
  | zero => exact absurd (Nat.zero_mod 8) h0
  | succ n =>
    show stS V c (n + 1) hn = St.step (iblk1 V c 0 ⟨n + 1, hn⟩) (iblk1 V c 1 ⟨n + 1, hn⟩) (iblk1 V c 2 ⟨n + 1, hn⟩) (stS V c n (Nat.lt_of_succ_lt hn))
    rw [stS_succ, if_neg h0]

/-! ## The invariant -/

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- What the body may use besides the windows, with the three scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ d, owns (c : Thread nD τ) scM1_0 fullShare d) ∗ (∃ d, owns (c : Thread nD τ) scM1_1 fullShare d)
      ∗ (∃ d, owns (c : Thread nD τ) scM1_2 fullShare d)) ∗ (∃ r, prngReg c r)) := by
  unfold Pipeline.ΦA; rw [scopedRest1_eq]; simp only [scM1_0, scM1_1, scM1_2, owns_whole]; try rfl

/-- The region's invariant before position `n`: before the first point every scratch buffer at anything; afterwards
    the three carried scratch buffers at the state the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (stS V c n hn).m ∗ owns (c : Thread nD τ) scM1_1 fullShare (stS V c n hn).l
      ∗ owns (c : Thread nD τ) scM1_2 fullShare (stS V c n hn).acc) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (stS V c n hn).m ∗ owns (c : Thread nD τ) scM1_1 fullShare (stS V c n hn).l
      ∗ owns (c : Thread nD τ) scM1_2 fullShare (stS V c n hn).acc) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (stS V c (n - 1) (by omega)).m ∗ owns (c : Thread nD τ) scM1_1 fullShare (stS V c (n - 1) (by omega)).l
      ∗ owns (c : Thread nD τ) scM1_2 fullShare (stS V c (n - 1) (by omega)).acc) ∗ (∃ r, prngReg c r)) := by
  cases n with
  | zero => exact absurd rfl hz
  | succ n => rfl

/-! ## The proof data -/

/-- The proof data of the attention region on core `c`: the arrays as the region finds them; after the body at point
    `t` each input's buffer at its block and the output's at numerator over denominator of the state after the point
    (read only where the block is written back: after the last block of keys of a row). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stS V c t.val t.isLt).out
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stS V c t.val t.isLt).out := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point, by its place in its row of the grid: at the first block of keys the scratch buffers are
    handed over at anything and reset; elsewhere they hold the state the point before left; at the last block of keys
    the output block is stored, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · have h1 : ¬ t.val % 8 = 7 := by omega
    rw [Dat.leavesExact_idle (dat1 V c) 3 t (idleAt1_3 t (fun h => h1 ((hcond1_1 t).mp h))) (noFlush1_3 t (fun h => h1 ((hcond1_1 t).mp h)))]
    rw [stS_first V c t h0]
    by_cases hz : t.val = 0
    · rw [PhiS_castSucc V c t, PhiS_zero V c _ _ hz, PhiA1_eq]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply (run1_A c Set.univ (grid1.coords t) _ _ _ _ _ _ _ _ _ _ _ _ _ _ ((hcond1_0 t).mpr h0) (fun h => h1 ((hcond1_1 t).mp h))
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply (run1_A c Set.univ (grid1.coords t) _ _ _ _ _ _ _ _ _ _ _ _ _ _ ((hcond1_0 t).mpr h0) (fun h => h1 ((hcond1_1 t).mp h))
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [stS_next V c t h0]
    rw [PhiS_castSucc V c t, PhiS_pos V c _ _ hz]
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3, stS_next V c t h0]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply (run1_C c Set.univ (grid1.coords t) _ _ _ _ _ _ _ _ _ _ _ _ _ _ (fun h => h0 ((hcond1_0 t).mp h)) ((hcond1_1 t).mpr h1)
        (iblk1 V c 0 t) (iblk1 V c 1 t) (iblk1 V c 2 t) (stS V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨B1, B2, B3, B4, B5, B6, B7, B8, B9, B10, B11, HS0, HS1, HS2⟩, Hg⟩, Ho, ⟨%d0, H0⟩, ⟨%d1, H1⟩, ⟨%d2, H2⟩, ⟨%d3, H3⟩⟩
      iapply (run1_B c Set.univ (grid1.coords t) _ _ _ _ _ _ _ _ _ _ _ _ _ _ (fun h => h0 ((hcond1_0 t).mp h)) (fun h => h1 ((hcond1_1 t).mp h))
        (iblk1 V c 0 t) (iblk1 V c 1 t) (iblk1 V c 2 t) ((dat1 V c).before 3 t d3) (stS V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [B1 B2 B3 B4 B5 B6 B7 B8 B9 B10 B11 HS0 HS1 HS2 Hg]
      · isplitl [B1 B2 B3 B4 B5 B6 B7 B8 B9 B10 B11 HS0 HS1 HS2]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives everything back: the carried contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨B1, B2, B3, B4, B5, B6, B7, B8, B9, B10, B11, HS0, HS1, HS2⟩, Hg⟩
  isplitl [B1 B2 B3 B4 B5 B6 B7 B8 B9 B10 B11 HS0 HS1 HS2]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [HS0]; · iexists _; iexact HS0
    isplitl [HS1]; · iexists _; iexact HS1
    iexists _; iexact HS2
  iexact Hg

end Cert.KernelIdeal.Fr

end
-- ==== Proof.KI.Run.lean ====
/-
  The whole program as a run: three conversions on the host, the projection region, the attention region.

  The contents of every buffer at each boundary are a fold from the launch memory: the host's three conversions, then
  the projection region's three output arrays at what its write-backs leave, then the attention region's output array
  at what its write-backs leave. Every weakly fair execution terminates, and the final memory holds, at every unscoped
  buffer, the last fold; the four arguments are written by nothing and end as launched.
-/
import proofs.«141828_j90855738180063_2_alg».proof.Proof.Gen.KernelIdeal.Launch
import proofs.«141828_j90855738180063_2_alg».proof.Proof.Gen.KernelIdeal.Skeleton
import proofs.«141828_j90855738180063_2_alg».proof.Proof.Gen.KernelIdeal.Points
import proofs.«141828_j90855738180063_2_alg».proof.Proof.KI.Body0
import proofs.«141828_j90855738180063_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host's three conversions of the weights (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation writes an argument. -/
theorem W1_of_arg (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The first argument is an input window of the projection region: never written. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide) (by decide) (by decide)
    _ = m ((c : Thread nD τ).loc main_arg0) := rfl
/-- The weights are read by the host only: no region stages them. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_arg m ρ c main_arg2 (by decide) (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide) (by decide) (by decide)
    _ = m ((c : Thread nD τ).loc main_arg3) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The projection region over the thread state: entered from every unscoped buffer after the host's conversions, left
    with its three output arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from the projection region's exit contents, left with its
    output array at what its write-backs leave. The carried scratch enters the invariant at anything and is
    given back at anything. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine Idealize.SL.BI.BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, and the final
    memory holds the last fold at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The result array after the run: what the attention region's write-backs leave. -/
theorem result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.KI.Arr0.lean ====
/-
  The projection region, from blocks to arrays. Point `t` of the grid reads rows `1024 t … 1024 t + 1023` of the
  input through window 0 and the three whole weight matrices through windows 1, 2, 3, and writes back three whole
  blocks at the same rows of the three outputs. So each output array after the region is one function of the input
  blocks: its row `i` is row `i % 1024` of the block computed at point `i / 1024`.
-/
import proofs.«141828_j90855738180063_2_alg».proof.Proof.KI.Body0
import proofs.«141828_j90855738180063_2_alg».proof.Proof.AttnState
import Idealize.ShloMosaic.Lib.Pipeline.Value
import Idealize.ShloMosaic.Lib.ValueIdx

noncomputable section

namespace Cert.KernelIdeal.Arr

open Cert.KernelIdeal Cert.KernelIdeal.Gen Cert.KernelIdeal.Fr Cert.KernelIdeal.Attn
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin S1024x1024.rank → Nat) = fun _ => 0 := funext fun a => by fin_cases a <;> rfl

/-- The row block of a row of the 8192-row arrays is one of the 8 grid points. -/
theorem blk_lt0 (j : S8192x1024.Idx) : (j 0).val / 1024 < cfg0.N := by
  have h : (j 0).val < 8192 := idx2_lt0 j
  show (j 0).val / 1024 < grid0.N
  rw [N_0]; omega
theorem blk_lt0' (i : Fin 8192) : i.val / 1024 < cfg0.N := by
  have h : i.val < 8192 := i.isLt
  show i.val / 1024 < grid0.N
  rw [N_0]; omega
/-- Row `r` of block `t` is a row of the 8192-row arrays. -/
theorem row_lt0 (t : Fin cfg0.N) (r : Fin 1024) : t.val * 1024 + r.val < 8192 := by
  have hN : t.val < 8 := lt_of_lt_of_eq t.isLt (show cfg0.N = 8 from N_0)
  have := r.isLt; omega

/-! ### The printed index maps, decided over the grid -/

theorem idx_facts0_4 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem idx_facts0_5 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = t.val ∧ win0_5.index t (1 : Fin 2) = 0 :=
  (by decide +kernel : ∀ t : Fin grid0.N, _)

theorem idx_facts0_6 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

/-! ### The input windows' blocks -/

/-- Window 0's block at point `t` is rows `1024 t … 1024 t + 1023` of the input. -/
theorem iblk0_0_apply (c : Dev nD) (t : Fin cfg0.N) (r k : Fin 1024) :
    iblk0 V c 0 t (ix2 r k) = V c main_arg0 (ix2 (⟨t.val * 1024 + r.val, row_lt0 t r⟩ : Fin 8192) k) := by
  obtain ⟨e0, e1, -⟩ := idx_facts0_4 t
  show V c main_arg0 (((cfg0.win 0).blk t).view.emb (ix2 r k)) = _
  refine congrArg (V c main_arg0) (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * k.val = k.val; omega

/-- Windows 1, 2, 3 hold the whole weight arrays at every point. -/
theorem iblk0_1_eq (c : Dev nD) (t : Fin cfg0.N) :
    (iblk0 V c 1 t : S1024x1024.Idx → Elt F .bf16) = V c main_v0 := by
  obtain ⟨-, -, e0, e1, -⟩ := idx_facts0_4 t
  funext y
  have hy0 : (y 0).val < 1024 := idx2_lt0 y
  show V c main_v0 (((cfg0.win 1).blk t).view.emb y) = V c main_v0 y
  refine congrArg (V c main_v0) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega
theorem iblk0_2_eq (c : Dev nD) (t : Fin cfg0.N) :
    (iblk0 V c 2 t : S1024x1024.Idx → Elt F .bf16) = V c main_v1 := by
  obtain ⟨-, -, -, -, e0, e1, -⟩ := idx_facts0_4 t
  funext y
  show V c main_v1 (((cfg0.win 2).blk t).view.emb y) = V c main_v1 y
  refine congrArg (V c main_v1) (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega
theorem iblk0_3_eq (c : Dev nD) (t : Fin cfg0.N) :
    (iblk0 V c 3 t : S1024x1024.Idx → Elt F .bf16) = V c main_v2 := by
  obtain ⟨-, -, -, -, -, -, e0, e1, -⟩ := idx_facts0_4 t
  funext y
  show V c main_v2 (((cfg0.win 3).blk t).view.emb y) = V c main_v2 y
  refine congrArg (V c main_v2) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-! ### Output window 4: the qBlk blocks -/

/-- The array the region leaves behind window 4, as one function of the input blocks: row `i` is row
    `i % 1024` of the block computed from input block `i / 1024`. -/
def G4 (c : Dev nD) : S8192x1024.Idx → Elt F .bf16 :=
  fun j => qBlk (iblk0 V c 0 ⟨(j 0).val / 1024, blk_lt0 j⟩) (iblk0 V c 1 ⟨(j 0).val / 1024, blk_lt0 j⟩)
    (ix2 (⟨(j 0).val % 1024, Nat.mod_lt _ (by decide)⟩ : Fin 1024) (⟨(j 1).val, idx2_lt1 j⟩ : Fin 1024))

/-- `G4` at an index of block `t`: the block computed at point `t`, at the coordinates inside the block. -/
theorem G4_at (c : Dev nD) (j : S8192x1024.Idx) (t : Fin cfg0.N) (y : S1024x1024.Idx)
    (h0 : (j 0).val = t.val * 1024 + (y 0).val) (h1 : (j 1).val = (y 1).val) :
    G4 V c j = qBlk (iblk0 V c 0 t) (iblk0 V c 1 t) y := by
  have hy0 : (y 0).val < 1024 := idx2_lt0 y
  have e1 : (⟨(j 0).val / 1024, blk_lt0 j⟩ : Fin cfg0.N) = t := Fin.ext (by show (j 0).val / 1024 = t.val; omega)
  have e2 : ix2 (⟨(j 0).val % 1024, Nat.mod_lt _ (by decide)⟩ : Fin 1024) (⟨(j 1).val, idx2_lt1 j⟩ : Fin 1024) = y :=
    funext fun a => Fin.ext (by
      match a with
      | ⟨0, _⟩ => show (j 0).val % 1024 = (y 0).val; omega
      | ⟨1, _⟩ => exact h1)
  subst e1
  unfold G4
  rw [e2]

/-- What point `t` writes back through window 4 is block `t` of `G4`. -/
theorem flushed0_4_eq (c : Dev nD) (t : Fin cfg0.N) :
    (dat0 V c).flushed 4 t = ((cfg0.win 4).blk t).view.read (Elt F) (G4 V c) := by
  show (cfg0.win 4).cut (grid0.coords t) ((dat0 V c).after 4 t) = _
  rw [after0_4]
  unfold out0_4
  rw [View.canon_unit_zero hz]
  simp only [View.ld_unit_zero (S := S1024x1024) hz]
  obtain ⟨-, -, -, -, -, -, -, -, e0, e1⟩ := idx_facts0_4 t
  funext y
  show k0_pay2 (iblk0 V c 0 t) (iblk0 V c 1 t) y = G4 V c (((cfg0.win 4).blk t).view.emb y)
  refine (G4_at V c _ t y ?_ ?_).symm
  · show win0_4.index t (0 : Fin 2) * 1024 + 1 * (y 0).val = t.val * 1024 + (y 0).val
    omega
  · show win0_4.index t (1 : Fin 2) * 1024 + 1 * (y 1).val = (y 1).val
    omega

/-- An index of the array is in point `t`'s block iff each coordinate is in the block's range on its axis. -/
theorem mem_blk0_4 (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3_0).slice (win0_4.rect t)).set ↔ _
  rw [View.set_slice_whole, Rect.mem_set_unit]
  exact Iff.rfl

/-- Every index of the array is in the block of the point of its row block. -/
theorem cover0_4 (i : S8192x1024.Idx) :
    ∃ t : Fin cfg0.N, (cfg0.win 4).flush t = true ∧ i ∈ ((cfg0.win 4).blk t).view.set := by
  have hi0 : (i 0).val < 8192 := idx2_lt0 i
  have hi1 : (i 1).val < 1024 := idx2_lt1 i
  refine ⟨⟨(i 0).val / 1024, blk_lt0 i⟩, flush0_4 _, ?_⟩
  obtain ⟨-, -, -, -, -, -, -, -, e0, e1⟩ := idx_facts0_4 ⟨(i 0).val / 1024, blk_lt0 i⟩
  have e0' : win0_4.index ⟨(i 0).val / 1024, blk_lt0 i⟩ (0 : Fin 2) = (i 0).val / 1024 := e0
  rw [mem_blk0_4]
  intro a
  match a with
  | ⟨0, _⟩ =>
    show win0_4.index ⟨(i 0).val / 1024, blk_lt0 i⟩ (0 : Fin 2) * 1024 ≤ (i 0).val
      ∧ (i 0).val < win0_4.index ⟨(i 0).val / 1024, blk_lt0 i⟩ (0 : Fin 2) * 1024 + 1024
    omega
  | ⟨1, _⟩ =>
    show win0_4.index ⟨(i 0).val / 1024, blk_lt0 i⟩ (1 : Fin 2) * 1024 ≤ (i 1).val
      ∧ (i 1).val < win0_4.index ⟨(i 0).val / 1024, blk_lt0 i⟩ (1 : Fin 2) * 1024 + 1024
    omega

/-- The array behind window 4 after the region is `G4`. -/
theorem arr0_4_eq (c : Dev nD) : (dat0 V c).arrAt 4 cfg0.N = G4 V c :=
  (dat0 V c).arrAt_eq_of_cover 4 (G4 V c) (fun t _ => flushed0_4_eq V c t) cover0_4

/-- Entry (i, d) of the array behind window 4 after the region. -/
theorem arr0_4 (c : Dev nD) (i : Fin 8192) (d : Fin 1024) :
    (dat0 V c).arrAt 4 cfg0.N (ix2 i d)
      = qBlk (iblk0 V c 0 ⟨i.val / 1024, blk_lt0' i⟩) (iblk0 V c 1 ⟨i.val / 1024, blk_lt0' i⟩)
          (ix2 (⟨i.val % 1024, Nat.mod_lt _ (by decide)⟩ : Fin 1024) d) :=
  congrFun (arr0_4_eq V c) (ix2 i d)

/-! ### Output window 5: the kBlk blocks -/

/-- The array the region leaves behind window 5, as one function of the input blocks: row `i` is row
    `i % 1024` of the block computed from input block `i / 1024`. -/
def G5 (c : Dev nD) : S8192x1024.Idx → Elt F .bf16 :=
  fun j => kBlk (iblk0 V c 0 ⟨(j 0).val / 1024, blk_lt0 j⟩) (iblk0 V c 2 ⟨(j 0).val / 1024, blk_lt0 j⟩)
    (ix2 (⟨(j 0).val % 1024, Nat.mod_lt _ (by decide)⟩ : Fin 1024) (⟨(j 1).val, idx2_lt1 j⟩ : Fin 1024))

/-- `G5` at an index of block `t`: the block computed at point `t`, at the coordinates inside the block. -/
theorem G5_at (c : Dev nD) (j : S8192x1024.Idx) (t : Fin cfg0.N) (y : S1024x1024.Idx)
    (h0 : (j 0).val = t.val * 1024 + (y 0).val) (h1 : (j 1).val = (y 1).val) :
    G5 V c j = kBlk (iblk0 V c 0 t) (iblk0 V c 2 t) y := by
  have hy0 : (y 0).val < 1024 := idx2_lt0 y
  have e1 : (⟨(j 0).val / 1024, blk_lt0 j⟩ : Fin cfg0.N) = t := Fin.ext (by show (j 0).val / 1024 = t.val; omega)
  have e2 : ix2 (⟨(j 0).val % 1024, Nat.mod_lt _ (by decide)⟩ : Fin 1024) (⟨(j 1).val, idx2_lt1 j⟩ : Fin 1024) = y :=
    funext fun a => Fin.ext (by
      match a with
      | ⟨0, _⟩ => show (j 0).val % 1024 = (y 0).val; omega
      | ⟨1, _⟩ => exact h1)
  subst e1
  unfold G5
  rw [e2]

/-- What point `t` writes back through window 5 is block `t` of `G5`. -/
theorem flushed0_5_eq (c : Dev nD) (t : Fin cfg0.N) :
    (dat0 V c).flushed 5 t = ((cfg0.win 5).blk t).view.read (Elt F) (G5 V c) := by
  show (cfg0.win 5).cut (grid0.coords t) ((dat0 V c).after 5 t) = _
  rw [after0_5]
  unfold out0_5
  rw [View.canon_unit_zero hz]
  simp only [View.ld_unit_zero (S := S1024x1024) hz]
  obtain ⟨-, -, -, -, -, -, -, -, e0, e1⟩ := idx_facts0_5 t
  funext y
  show k0_pay3 (iblk0 V c 0 t) (iblk0 V c 2 t) y = G5 V c (((cfg0.win 5).blk t).view.emb y)
  refine (G5_at V c _ t y ?_ ?_).symm
  · show win0_5.index t (0 : Fin 2) * 1024 + 1 * (y 0).val = t.val * 1024 + (y 0).val
    omega
  · show win0_5.index t (1 : Fin 2) * 1024 + 1 * (y 1).val = (y 1).val
    omega

/-- An index of the array is in point `t`'s block iff each coordinate is in the block's range on its axis. -/
theorem mem_blk0_5 (t : Fin cfg0.N) (i : S8192x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v3_1).slice (win0_5.rect t)).set ↔ _
  rw [View.set_slice_whole, Rect.mem_set_unit]
  exact Iff.rfl

/-- Every index of the array is in the block of the point of its row block. -/
theorem cover0_5 (i : S8192x1024.Idx) :
    ∃ t : Fin cfg0.N, (cfg0.win 5).flush t = true ∧ i ∈ ((cfg0.win 5).blk t).view.set := by
  have hi0 : (i 0).val < 8192 := idx2_lt0 i
  have hi1 : (i 1).val < 1024 := idx2_lt1 i
  refine ⟨⟨(i 0).val / 1024, blk_lt0 i⟩, flush0_5 _, ?_⟩
  obtain ⟨-, -, -, -, -, -, -, -, e0, e1⟩ := idx_facts0_5 ⟨(i 0).val / 1024, blk_lt0 i⟩
  have e0' : win0_5.index ⟨(i 0).val / 1024, blk_lt0 i⟩ (0 : Fin 2) = (i 0).val / 1024 := e0
  rw [mem_blk0_5]
  intro a
  match a with
  | ⟨0, _⟩ =>
    show win0_5.index ⟨(i 0).val / 1024, blk_lt0 i⟩ (0 : Fin 2) * 1024 ≤ (i 0).val
      ∧ (i 0).val < win0_5.index ⟨(i 0).val / 1024, blk_lt0 i⟩ (0 : Fin 2) * 1024 + 1024
    omega
  | ⟨1, _⟩ =>
    show win0_5.index ⟨(i 0).val / 1024, blk_lt0 i⟩ (1 : Fin 2) * 1024 ≤ (i 1).val
      ∧ (i 1).val < win0_5.index ⟨(i 0).val / 1024, blk_lt0 i⟩ (1 : Fin 2) * 1024 + 1024
    omega

/-- The array behind window 5 after the region is `G5`. -/
theorem arr0_5_eq (c : Dev nD) : (dat0 V c).arrAt 5 cfg0.N = G5 V c :=
  (dat0 V c).arrAt_eq_of_cover 5 (G5 V c) (fun t _ => flushed0_5_eq V c t) cover0_5

/-- Entry (i, d) of the array behind window 5 after the region. -/
theorem arr0_5 (c : Dev nD) (i : Fin 8192) (d : Fin 1024) :
    (dat0 V c).arrAt 5 cfg0.N (ix2 i d)
      = kBlk (iblk0 V c 0 ⟨i.val / 1024, blk_lt0' i⟩) (iblk0 V c 2 ⟨i.val / 1024, blk_lt0' i⟩)
          (ix2 (⟨i.val % 1024, Nat.mod_lt _ (by decide)⟩ : Fin 1024) d) :=
  congrFun (arr0_5_eq V c) (ix2 i d)

/-! ### Output window 6: the vBlk blocks -/

/-- The array the region leaves behind window 6, as one function of the input blocks: row `i` is row
    `i % 1024` of the block computed from input block `i / 1024`. -/
def G6 (c : Dev nD) : S8192x1024.Idx → Elt F .bf16 :=
  fun j => vBlk (iblk0 V c 0 ⟨(j 0).val / 1024, blk_lt0 j⟩) (iblk0 V c 3 ⟨(j 0).val / 1024, blk_lt0 j⟩)
    (ix2 (⟨(j 0).val % 1024, Nat.mod_lt _ (by decide)⟩ : Fin 1024) (⟨(j 1).val, idx2_lt1 j⟩ : Fin 1024))

/-- `G6` at an index of block `t`: the block computed at point `t`, at the coordinates inside the block. -/
theorem G6_at (c : Dev nD) (j : S8192x1024.Idx) (t : Fin cfg0.N) (y : S1024x1024.Idx)
    (h0 : (j 0).val = t.val * 1024 + (y 0).val) (h1 : (j 1).val = (y 1).val) :
    G6 V c j = vBlk (iblk0 V c 0 t) (iblk0 V c 3 t) y := by
  have hy0 : (y 0).val < 1024 := idx2_lt0 y
  have e1 : (⟨(j 0).val / 1024, blk_lt0 j⟩ : Fin cfg0.N) = t := Fin.ext (by show (j 0).val / 1024 = t.val; omega)
  have e2 : ix2 (⟨(j 0).val % 1024, Nat.mod_lt _ (by decide)⟩ : Fin 1024) (⟨(j 1).val, idx2_lt1 j⟩ : Fin 1024) = y :=
    funext fun a => Fin.ext (by
      match a with
      | ⟨0, _⟩ => show (j 0).val % 1024 = (y 0).val; omega
      | ⟨1, _⟩ => exact h1)
  subst e1
  unfold G6
  rw [e2]

/-- What point `t` writes back through window 6 is block `t` of `G6`. -/
theorem flushed0_6_eq (c : Dev nD) (t : Fin cfg0.N) :
    (dat0 V c).flushed 6 t = ((cfg0.win 6).blk t).view.read (Elt F) (G6 V c) := by
  show (cfg0.win 6).cut (grid0.coords t) ((dat0 V c).after 6 t) = _
  rw [after0_6]
  unfold out0_6
  rw [View.canon_unit_zero hz]
  simp only [View.ld_unit_zero (S := S1024x1024) hz]
  obtain ⟨-, -, -, -, -, -, -, -, e0, e1⟩ := idx_facts0_6 t
  funext y
  show k0_pay4 (iblk0 V c 0 t) (iblk0 V c 3 t) y = G6 V c (((cfg0.win 6).blk t).view.emb y)
  refine (G6_at V c _ t y ?_ ?_).symm
  · show win0_6.index t (0 : Fin 2) * 1024 + 1 * (y 0).val = t.val * 1024 + (y 0).val
    omega
  · show win0_6.index t (1 : Fin 2) * 1024 + 1 * (y 1).val = (y 1).val
    omega

/-- An index of the array is in point `t`'s block iff each coordinate is in the block's range on its axis. -/
theorem mem_blk0_6 (t : Fin cfg0.N) (i : S8192x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v3_2).slice (win0_6.rect t)).set ↔ _
  rw [View.set_slice_whole, Rect.mem_set_unit]
  exact Iff.rfl

/-- Every index of the array is in the block of the point of its row block. -/
theorem cover0_6 (i : S8192x1024.Idx) :
    ∃ t : Fin cfg0.N, (cfg0.win 6).flush t = true ∧ i ∈ ((cfg0.win 6).blk t).view.set := by
  have hi0 : (i 0).val < 8192 := idx2_lt0 i
  have hi1 : (i 1).val < 1024 := idx2_lt1 i
  refine ⟨⟨(i 0).val / 1024, blk_lt0 i⟩, flush0_6 _, ?_⟩
  obtain ⟨-, -, -, -, -, -, -, -, e0, e1⟩ := idx_facts0_6 ⟨(i 0).val / 1024, blk_lt0 i⟩
  have e0' : win0_6.index ⟨(i 0).val / 1024, blk_lt0 i⟩ (0 : Fin 2) = (i 0).val / 1024 := e0
  rw [mem_blk0_6]
  intro a
  match a with
  | ⟨0, _⟩ =>
    show win0_6.index ⟨(i 0).val / 1024, blk_lt0 i⟩ (0 : Fin 2) * 1024 ≤ (i 0).val
      ∧ (i 0).val < win0_6.index ⟨(i 0).val / 1024, blk_lt0 i⟩ (0 : Fin 2) * 1024 + 1024
    omega
  | ⟨1, _⟩ =>
    show win0_6.index ⟨(i 0).val / 1024, blk_lt0 i⟩ (1 : Fin 2) * 1024 ≤ (i 1).val
      ∧ (i 1).val < win0_6.index ⟨(i 0).val / 1024, blk_lt0 i⟩ (1 : Fin 2) * 1024 + 1024
    omega

/-- The array behind window 6 after the region is `G6`. -/
theorem arr0_6_eq (c : Dev nD) : (dat0 V c).arrAt 6 cfg0.N = G6 V c :=
  (dat0 V c).arrAt_eq_of_cover 6 (G6 V c) (fun t _ => flushed0_6_eq V c t) cover0_6

/-- Entry (i, d) of the array behind window 6 after the region. -/
theorem arr0_6 (c : Dev nD) (i : Fin 8192) (d : Fin 1024) :
    (dat0 V c).arrAt 6 cfg0.N (ix2 i d)
      = vBlk (iblk0 V c 0 ⟨i.val / 1024, blk_lt0' i⟩) (iblk0 V c 3 ⟨i.val / 1024, blk_lt0' i⟩)
          (ix2 (⟨i.val % 1024, Nat.mod_lt _ (by decide)⟩ : Fin 1024) d) :=
  congrFun (arr0_6_eq V c) (ix2 i d)

end Cert.KernelIdeal.Arr

end
-- ==== Proof.KI.Arr1.lean ====
/-
  The attention region, from blocks to arrays. The grid is 8 rows of 8 points; point `t` is in row `t / 8` at
  position `t % 8`. Window 0 reads the query rows of block `t / 8`, windows 1 and 2 the key and value rows of
  block `t % 8`, and the output window writes back the rows of block `t / 8`, at the last point of each row of
  the grid only. So the output array after the region is one function of the carried states: its row `i` is row
  `i % 1024` of numerator over denominator of the state after point `8 (i / 1024) + 7`.
-/
import proofs.«141828_j90855738180063_2_alg».proof.Proof.KI.Body1
import Idealize.ShloMosaic.Lib.Pipeline.Value
import Idealize.ShloMosaic.Lib.ValueIdx

noncomputable section

namespace Cert.KernelIdeal.Arr

open Cert.KernelIdeal Cert.KernelIdeal.Gen Cert.KernelIdeal.Fr Cert.KernelIdeal.Attn
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- Row `r` of the block of a point's grid row, and of the block of its position in the row, are rows of the
    8192-row arrays. -/
theorem rowq_lt1 (t : Fin cfg1.N) (r : Fin 1024) : (t.val / 8) * 1024 + r.val < 8192 := by
  have hN : t.val < 64 := lt_of_lt_of_eq t.isLt (show cfg1.N = 64 from N_1)
  have := r.isLt; omega
theorem rowk_lt1 (t : Fin cfg1.N) (r : Fin 1024) : (t.val % 8) * 1024 + r.val < 8192 := by
  have := r.isLt; omega
/-- The last point of the grid row of a row of the 8192-row arrays is one of the 64 grid points. -/
theorem pt_lt1 (j : S8192x1024.Idx) : (j 0).val / 1024 * 8 + 7 < cfg1.N := by
  have h : (j 0).val < 8192 := idx2_lt0 j
  show (j 0).val / 1024 * 8 + 7 < grid1.N
  rw [N_1]; omega
theorem pt_lt1' (i : Fin 8192) : i.val / 1024 * 8 + 7 < cfg1.N := by
  have h : i.val < 8192 := i.isLt
  show i.val / 1024 * 8 + 7 < grid1.N
  rw [N_1]; omega

/-! ### The printed index maps, decided over the grid -/

theorem idx_facts1_0 : ∀ t : Fin cfg1.N, win1_0.index t (0 : Fin 2) = t.val / 8 ∧ win1_0.index t (1 : Fin 2) = 0 :=
  (by decide +kernel : ∀ t : Fin grid1.N, _)
theorem idx_facts1_1 : ∀ t : Fin cfg1.N, win1_1.index t (0 : Fin 2) = t.val % 8 ∧ win1_1.index t (1 : Fin 2) = 0 :=
  (by decide +kernel : ∀ t : Fin grid1.N, _)
theorem idx_facts1_2 : ∀ t : Fin cfg1.N, win1_2.index t (0 : Fin 2) = t.val % 8 ∧ win1_2.index t (1 : Fin 2) = 0 :=
  (by decide +kernel : ∀ t : Fin grid1.N, _)
theorem idx_facts1_3 : ∀ t : Fin cfg1.N, win1_3.index t (0 : Fin 2) = t.val / 8 ∧ win1_3.index t (1 : Fin 2) = 0 :=
  (by decide +kernel : ∀ t : Fin grid1.N, _)

/-! ### The input windows' blocks -/

/-- Window 0's block at point `t` is rows `1024 q … 1024 q + 1023` of its array, `q` the point's row of the grid. -/
theorem iblk1_0_apply (c : Dev nD) (t : Fin cfg1.N) (r d : Fin 1024) :
    iblk1 V c 0 t (ix2 r d) = V c main_v3_0 (ix2 (⟨(t.val / 8) * 1024 + r.val, rowq_lt1 t r⟩ : Fin 8192) d) := by
  obtain ⟨e0, e1⟩ := idx_facts1_0 t
  show V c main_v3_0 (((cfg1.win 0).blk t).view.emb (ix2 r d)) = _
  refine congrArg (V c main_v3_0) (funext fun a => Fin.ext ?_)
  match a with
  | ⟨0, _⟩ => show win1_0.index t (0 : Fin 2) * 1024 + 1 * r.val = (t.val / 8) * 1024 + r.val; omega
  | ⟨1, _⟩ => show win1_0.index t (1 : Fin 2) * 1024 + 1 * d.val = d.val; omega

/-- Window 1's block at point `t` is rows `1024 q … 1024 q + 1023` of its array, `q` the point's position in its row of the grid. -/
theorem iblk1_1_apply (c : Dev nD) (t : Fin cfg1.N) (r d : Fin 1024) :
    iblk1 V c 1 t (ix2 r d) = V c main_v3_1 (ix2 (⟨(t.val % 8) * 1024 + r.val, rowk_lt1 t r⟩ : Fin 8192) d) := by
  obtain ⟨e0, e1⟩ := idx_facts1_1 t
  show V c main_v3_1 (((cfg1.win 1).blk t).view.emb (ix2 r d)) = _
  refine congrArg (V c main_v3_1) (funext fun a => Fin.ext ?_)
  match a with
  | ⟨0, _⟩ => show win1_1.index t (0 : Fin 2) * 1024 + 1 * r.val = (t.val % 8) * 1024 + r.val; omega
  | ⟨1, _⟩ => show win1_1.index t (1 : Fin 2) * 1024 + 1 * d.val = d.val; omega

/-- Window 2's block at point `t` is rows `1024 q … 1024 q + 1023` of its array, `q` the point's position in its row of the grid. -/
theorem iblk1_2_apply (c : Dev nD) (t : Fin cfg1.N) (r d : Fin 1024) :
    iblk1 V c 2 t (ix2 r d) = V c main_v3_2 (ix2 (⟨(t.val % 8) * 1024 + r.val, rowk_lt1 t r⟩ : Fin 8192) d) := by
  obtain ⟨e0, e1⟩ := idx_facts1_2 t
  show V c main_v3_2 (((cfg1.win 2).blk t).view.emb (ix2 r d)) = _
  refine congrArg (V c main_v3_2) (funext fun a => Fin.ext ?_)
  match a with
  | ⟨0, _⟩ => show win1_2.index t (0 : Fin 2) * 1024 + 1 * r.val = (t.val % 8) * 1024 + r.val; omega
  | ⟨1, _⟩ => show win1_2.index t (1 : Fin 2) * 1024 + 1 * d.val = d.val; omega

/-! ### The output window -/

/-- The carried state depends on the point's position only. -/
theorem stS_congr (c : Dev nD) {n n' : ℕ} (h : n = n') (hn : n < cfg1.N) (hn' : n' < cfg1.N) :
    stS V c n hn = stS V c n' hn' := by
  subst h; rfl

/-- The array the region leaves behind the output window, as one function of the carried states: row `i` is row
    `i % 1024` of the output block of the state after the last point of grid row `i / 1024`. -/
def G3 (c : Dev nD) : S8192x1024.Idx → Elt F .f32 :=
  fun j => (stS V c ((j 0).val / 1024 * 8 + 7) (pt_lt1 j)).out
    (ix2 (⟨(j 0).val % 1024, Nat.mod_lt _ (by decide)⟩ : Fin 1024) (⟨(j 1).val, idx2_lt1 j⟩ : Fin 1024))

/-- `G3` at an index of the block of a last point `t` of a grid row: the output block of the state after `t`, at
    the coordinates inside the block. -/
theorem G3_at (c : Dev nD) (j : S8192x1024.Idx) (t : Fin cfg1.N) (y : S1024x1024.Idx) (h7 : t.val % 8 = 7)
    (h0 : (j 0).val = (t.val / 8) * 1024 + (y 0).val) (h1 : (j 1).val = (y 1).val) :
    G3 V c j = (stS V c t.val t.isLt).out y := by
  have hy0 : (y 0).val < 1024 := idx2_lt0 y
  have en : (j 0).val / 1024 * 8 + 7 = t.val := by omega
  have e2 : ix2 (⟨(j 0).val % 1024, Nat.mod_lt _ (by decide)⟩ : Fin 1024) (⟨(j 1).val, idx2_lt1 j⟩ : Fin 1024) = y :=
    funext fun a => Fin.ext (by
      match a with
      | ⟨0, _⟩ => show (j 0).val % 1024 = (y 0).val; omega
      | ⟨1, _⟩ => exact h1)
  unfold G3
  rw [stS_congr V c en (pt_lt1 j) t.isLt, e2]

/-- What a last point `t` of a grid row writes back through the output window is block `t / 8` of `G3`. -/
theorem flushed1_3_eq (c : Dev nD) (t : Fin cfg1.N) (hf : (cfg1.win 3).flush t = true) :
    (dat1 V c).flushed 3 t = ((cfg1.win 3).blk t).view.read (Elt F) (G3 V c) := by
  have h7 : t.val % 8 = 7 := (flush1_3 t).mp hf
  show (cfg1.win 3).cut (grid1.coords t) ((dat1 V c).after 3 t) = _
  rw [after1_3]
  obtain ⟨e0, e1⟩ := idx_facts1_3 t
  funext y
  show (stS V c t.val t.isLt).out y = G3 V c (((cfg1.win 3).blk t).view.emb y)
  refine (G3_at V c _ t y h7 ?_ ?_).symm
  · show win1_3.index t (0 : Fin 2) * 1024 + 1 * (y 0).val = (t.val / 8) * 1024 + (y 0).val
    omega
  · show win1_3.index t (1 : Fin 2) * 1024 + 1 * (y 1).val = (y 1).val
    omega

/-- An index of the array is in point `t`'s block iff each coordinate is in the block's range on its axis. -/
theorem mem_blk1_3 (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v4).slice (win1_3.rect t)).set ↔ _
  rw [View.set_slice_whole, Rect.mem_set_unit]
  exact Iff.rfl

/-- Every index of the array is in the block of the last point of its grid row, which writes back. -/
theorem cover1_3 (i : S8192x1024.Idx) :
    ∃ t : Fin cfg1.N, (cfg1.win 3).flush t = true ∧ i ∈ ((cfg1.win 3).blk t).view.set := by
  have hi0 : (i 0).val < 8192 := idx2_lt0 i
  have hi1 : (i 1).val < 1024 := idx2_lt1 i
  refine ⟨⟨(i 0).val / 1024 * 8 + 7, pt_lt1 i⟩, (flush1_3 _).mpr (by show ((i 0).val / 1024 * 8 + 7) % 8 = 7; omega), ?_⟩
  obtain ⟨e0, e1⟩ := idx_facts1_3 ⟨(i 0).val / 1024 * 8 + 7, pt_lt1 i⟩
  have e0' : win1_3.index ⟨(i 0).val / 1024 * 8 + 7, pt_lt1 i⟩ (0 : Fin 2) = ((i 0).val / 1024 * 8 + 7) / 8 := e0
  rw [mem_blk1_3]
  intro a
  match a with
  | ⟨0, _⟩ =>
    show win1_3.index ⟨(i 0).val / 1024 * 8 + 7, pt_lt1 i⟩ (0 : Fin 2) * 1024 ≤ (i 0).val
      ∧ (i 0).val < win1_3.index ⟨(i 0).val / 1024 * 8 + 7, pt_lt1 i⟩ (0 : Fin 2) * 1024 + 1024
    omega
  | ⟨1, _⟩ =>
    show win1_3.index ⟨(i 0).val / 1024 * 8 + 7, pt_lt1 i⟩ (1 : Fin 2) * 1024 ≤ (i 1).val
      ∧ (i 1).val < win1_3.index ⟨(i 0).val / 1024 * 8 + 7, pt_lt1 i⟩ (1 : Fin 2) * 1024 + 1024
    omega

/-- The output array after the region is `G3`. -/
theorem arr1_3_eq (c : Dev nD) : (dat1 V c).arrAt 3 cfg1.N = G3 V c :=
  (dat1 V c).arrAt_eq_of_cover 3 (G3 V c) (flushed1_3_eq V c) cover1_3

/-- Entry (i, e) of the output array after the region. -/
theorem arr1_3 (c : Dev nD) (i : Fin 8192) (e : Fin 1024) :
    (dat1 V c).arrAt 3 cfg1.N (ix2 i e)
      = (stS V c (i.val / 1024 * 8 + 7) (pt_lt1' i)).out (ix2 (⟨i.val % 1024, Nat.mod_lt _ (by decide)⟩ : Fin 1024) e) :=
  congrFun (arr1_3_eq V c) (ix2 i e)

end Cert.KernelIdeal.Arr

end
-- ==== Proof.KI.Entry.lean ====
/-
  What the two regions find in memory when they start: the first argument as launched; the three converted weights,
  which at the ideal instance are the launched weights entry by entry (a change of float format is the identity on
  extended reals); and, after the projection region, its three result arrays at what its write-backs leave.
-/
import proofs.«141828_j90855738180063_2_alg».proof.Proof.KI.Run
import Idealize.ShloMosaic.Lib.ValueIdx

set_option maxRecDepth 16384

noncomputable section

namespace Cert.KernelIdeal.Entry

open Cert.KernelIdeal Cert.KernelIdeal.Gen Cert.KernelIdeal.Fr
open Idealize.ShloMosaic Idealize.ShloMosaic.TcCoe Idealize.ShloMosaic.Tactic
open Idealize.SL Idealize.SL.Sem

section AnyInstance
variable {F : FTy → Type} [FloatOps F]
variable (m : (ℓ : Loc nD τ sig) → Buf (Elt F) ℓ) (ρ : Dev nD → PrngReg)

/-- The first argument is written by no host operation: the projection region finds it as launched. -/
theorem V1_arg0 (c : Dev nD) : V1 m ρ c main_arg0 = m ((c : Thread nD τ).loc main_arg0) :=
  W1_of_arg m ρ c main_arg0 (by decide) (by decide) (by decide)

/-- The attention region finds the projected queries at what the projection region's write-backs leave. -/
theorem V2_v3_0 (c : Dev nD) : V2 m ρ c main_v3_0 = (dat0 (V1 m ρ) c).arrAt 4 cfg0.N := W2_arr m ρ c 4
/-- … the projected keys … -/
theorem V2_v3_1 (c : Dev nD) : V2 m ρ c main_v3_1 = (dat0 (V1 m ρ) c).arrAt 5 cfg0.N := W2_arr m ρ c 5
/-- … and the projected values. -/
theorem V2_v3_2 (c : Dev nD) : V2 m ρ c main_v3_2 = (dat0 (V1 m ρ) c).arrAt 6 cfg0.N := W2_arr m ρ c 6

end AnyInstance

section AtIdeal
variable (m : (ℓ : Loc nD τ sig) → Buf (Elt Ideal) ℓ) (ρ : Dev nD → PrngReg)

/-- The first converted weight matrix is the launched one, entry by entry. -/
theorem V1_v0 (c : Dev nD) (j : S1024x1024.Idx) :
    V1 (F := Ideal) m ρ c main_v0 j = m ((c : Thread nD τ).loc main_arg1) j := by
  have e : @Eq (FVec Ideal S1024x1024 .bf16) (V1 (F := Ideal) m ρ c main_v0)
      (truncf .bf16 (m ((c : Thread nD τ).loc main_arg1) : FVec Ideal S1024x1024 .f32) bitsLt_bf16_f32) := by
    dsimp only [V1, W1, hostOps0]; after_results
  rw [e]; rfl

/-- The second converted weight matrix is the launched one, entry by entry. -/
theorem V1_v1 (c : Dev nD) (j : S1024x1024.Idx) :
    V1 (F := Ideal) m ρ c main_v1 j = m ((c : Thread nD τ).loc main_arg2) j := by
  have e : @Eq (FVec Ideal S1024x1024 .bf16) (V1 (F := Ideal) m ρ c main_v1)
      (truncf .bf16 (m ((c : Thread nD τ).loc main_arg2) : FVec Ideal S1024x1024 .f32) bitsLt_bf16_f32) := by
    dsimp only [V1, W1, hostOps0]; after_results
  rw [e]; rfl

/-- The third converted weight matrix is the launched one, entry by entry. -/
theorem V1_v2 (c : Dev nD) (j : S1024x1024.Idx) :
    V1 (F := Ideal) m ρ c main_v2 j = m ((c : Thread nD τ).loc main_arg3) j := by
  have e : @Eq (FVec Ideal S1024x1024 .bf16) (V1 (F := Ideal) m ρ c main_v2)
      (truncf .bf16 (m ((c : Thread nD τ).loc main_arg3) : FVec Ideal S1024x1024 .f32) bitsLt_bf16_f32) := by
    dsimp only [V1, W1, hostOps0]; after_results
  rw [e]; rfl

end AtIdeal

end Cert.KernelIdeal.Entry

end
-- ==== Proof.Spec.lean ====
/-
  Single-head attention over the extended reals, entry by entry.

  For a sequence `x` of 8192 rows of 1024 features and three weight matrices of size 1024 by 1024:
  the projections `q = x · Wq`, `k = x · Wk`, `v = x · Wv`; the score of query row `i` against key row `j`
  is `(∑ d, q i d * k j d) * c` for a scale `c`; a row of scores is shifted by its maximum (folded from -∞ and
  joined with -∞ once more), exponentiated, and divided by the sum of the row's exponentials (taken from 0);
  the result at `(i, e)` is the sum over `j` of these weights times `v j e`.
-/
import Idealize.ShloMosaic.PureOps.Ideal

noncomputable section

namespace Cert.AttnSpec

open Idealize.ShloMosaic

/-- The projection `x · w` at row `i`, column `d`. -/
def proj (x : Fin 8192 → Fin 1024 → EReal) (w : Fin 1024 → Fin 1024 → EReal) (i : Fin 8192) (d : Fin 1024) : EReal :=
  ∑ k : Fin 1024, x i k * w k d

/-- The score of query row `i` against key row `j`, with the scale `c`. -/
def score (x : Fin 8192 → Fin 1024 → EReal) (wq wk : Fin 1024 → Fin 1024 → EReal) (c : EReal) (i j : Fin 8192) : EReal :=
  (∑ d : Fin 1024, proj x wq i d * proj x wk j d) * c

/-- A row's maximum: folded from -∞ and joined with -∞ once more. -/
def rowMax (s : Fin 8192 → EReal) : EReal :=
  max ⊥ ((Finset.univ : Finset (Fin 8192)).fold max ⊥ s)

/-- The attention output at row `i`, column `e`: the softmax of row `i`'s scores weighting the rows of `x · wv`. -/
def attn (x : Fin 8192 → Fin 1024 → EReal) (wq wk wv : Fin 1024 → Fin 1024 → EReal) (c : EReal) (i : Fin 8192) (e : Fin 1024) : EReal :=
  ∑ j : Fin 8192,
    Ideal.div (Ideal.exp (score x wq wk c i j - rowMax (score x wq wk c i)))
        (0 + ∑ j' : Fin 8192, Ideal.exp (score x wq wk c i j' - rowMax (score x wq wk c i)))
      * proj x wv j e

end Cert.AttnSpec

end
-- ==== Proof.LibOnlineSoftmax.lean ====
/-
  The online-softmax recursion computes the softmax-weighted sum.

  A row of N = n * b real scores σ 0, …, σ (N - 1) with real values β 0, …, β (N - 1) is read in n blocks
  of length b.  The recursion keeps a running maximum M (from -∞), a running denominator L and a running
  numerator A (both from 0); at each block the new maximum M' is the old one joined with the block's
  maximum, and L and A are rescaled by exp (M - M') before the block's terms exp (s - M') and
  exp (s - M') * β are added.  This file proves, for every n > 0 and b > 0 (generic in both extents),
  that after n blocks the quotient A / L equals the ordinary softmax-weighted sum

      ∑ t, (exp (σ t - mx) / ∑ t', exp (σ t' - mx)) * β t,       mx = the maximum of all N scores,

  all operations being the exact ones on the extended reals (exp (-∞) = 0, so the first rescale factor
  is 0 and multiplies the initial 0).  The argument: after j ≥ 1 blocks the state is
  (μ, ∑_{t < j b} exp (σ t - μ), ∑_{t < j b} exp (σ t - μ) * β t) for a real μ (exp (μ - μ') * exp (σ - μ)
  = exp (σ - μ')), and a softmax-weighted sum does not depend on the real shift μ that is subtracted.
-/
import Idealize.ShloMosaic.PureOps.Ideal

noncomputable section

namespace Cert.LibOnlineSoftmax

open Idealize.ShloMosaic

variable {b : ℕ}

/-- The new running maximum: the old one joined with the block's maximum (folded from -∞). -/
def stepM (M : EReal) (s : Fin b → EReal) : EReal :=
  max M ((Finset.univ : Finset (Fin b)).fold max ⊥ s)

/-- The new running denominator: the old one rescaled, plus the block's exponentials. -/
def stepL (M L : EReal) (s : Fin b → EReal) : EReal :=
  Ideal.exp (M - stepM M s) * L + ∑ k : Fin b, Ideal.exp (s k - stepM M s)

/-- The new running numerator: the old one rescaled, plus the block's weighted values. -/
def stepA (M A : EReal) (s β : Fin b → EReal) : EReal :=
  Ideal.exp (M - stepM M s) * A + ∑ k : Fin b, Ideal.exp (s k - stepM M s) * β k

/-- The state (M, L, A) after j blocks; block j has scores s j and values β j. -/
def state (s β : ℕ → Fin b → EReal) : ℕ → EReal × EReal × EReal
  | 0 => (⊥, 0, 0)
  | j + 1 => (stepM (state s β j).1 (s j), stepL (state s β j).1 (state s β j).2.1 (s j),
      stepA (state s β j).1 (state s β j).2.2 (s j) (β j))

theorem state_zero (s β : ℕ → Fin b → EReal) : state s β 0 = (⊥, 0, 0) := rfl

theorem state_succ (s β : ℕ → Fin b → EReal) (j : ℕ) :
    state s β (j + 1) = (stepM (state s β j).1 (s j), stepL (state s β j).1 (state s β j).2.1 (s j),
      stepA (state s β j).1 (state s β j).2.2 (s j) (β j)) := rfl

/-! ### Coercions -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coerced maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- exp of a difference of two reals. -/
theorem exp_coe_sub_coe (x y : ℝ) :
    Ideal.exp ((x : EReal) - (y : EReal)) = ((Real.exp (x - y) : ℝ) : EReal) := by
  rw [← EReal.coe_sub, Ideal.exp_coe]

/-- Division of two reals by a nonzero denominator is the real division. -/
theorem div_coe_coe (x y : ℝ) (hy : y ≠ 0) :
    Ideal.div (x : EReal) (y : EReal) = ((x / y : ℝ) : EReal) := by
  rw [Ideal.div_coe hy, ← EReal.coe_mul, mul_one_div]

/-! ### The running maximum stays real -/

/-- A real joined with the maximum (from -∞) of finitely many reals is a real. -/
theorem max_fold_coe {ι : Type*} (s : Finset ι) (f : ι → ℝ) :
    ∀ r0 : ℝ, ∃ r : ℝ, max (r0 : EReal) (s.fold max ⊥ (fun k => (f k : EReal))) = (r : EReal) := by
  classical
  induction s using Finset.induction_on with
  | empty => intro r0; exact ⟨r0, by rw [Finset.fold_empty, max_eq_left bot_le]⟩
  | insert a s ha ih =>
    intro r0
    obtain ⟨r, hr⟩ := ih (max r0 (f a))
    exact ⟨r, by rw [Finset.fold_insert ha, ← max_assoc, max_coe, hr]⟩

theorem stepM_coe (μ : ℝ) (f : Fin b → ℝ) :
    ∃ r : ℝ, stepM (μ : EReal) (fun k => (f k : EReal)) = (r : EReal) :=
  max_fold_coe Finset.univ f μ

theorem stepM_bot (hb : 0 < b) (f : Fin b → ℝ) :
    ∃ r : ℝ, stepM ⊥ (fun k => (f k : EReal)) = (r : EReal) := by
  classical
  obtain ⟨r, hr⟩ := max_fold_coe ((Finset.univ : Finset (Fin b)).erase ⟨0, hb⟩) f (f ⟨0, hb⟩)
  refine ⟨r, ?_⟩
  rw [stepM, max_eq_right bot_le, ← Finset.insert_erase (Finset.mem_univ (⟨0, hb⟩ : Fin b)),
    Finset.fold_insert (Finset.notMem_erase _ _), hr]

/-! ### One block, on reals -/

/-- The block's exponentials, all real. -/
theorem block_exp (μ' : ℝ) (f : Fin b → ℝ) :
    ∑ k : Fin b, Ideal.exp ((f k : EReal) - (μ' : EReal))
      = ((∑ k : Fin b, Real.exp (f k - μ') : ℝ) : EReal) := by
  rw [coe_sum]
  exact Finset.sum_congr rfl (fun k _ => exp_coe_sub_coe _ _)

/-- The block's weighted values, all real. -/
theorem block_exp_mul (μ' : ℝ) (f g : Fin b → ℝ) :
    ∑ k : Fin b, Ideal.exp ((f k : EReal) - (μ' : EReal)) * (g k : EReal)
      = ((∑ k : Fin b, Real.exp (f k - μ') * g k : ℝ) : EReal) := by
  rw [coe_sum]
  exact Finset.sum_congr rfl (fun k _ => by rw [exp_coe_sub_coe, EReal.coe_mul])

/-- A denominator step from a real state. -/
theorem stepL_coe (μ μ' L : ℝ) (f : Fin b → ℝ)
    (h : stepM (μ : EReal) (fun k => (f k : EReal)) = (μ' : EReal)) :
    stepL (μ : EReal) (L : EReal) (fun k => (f k : EReal))
      = ((Real.exp (μ - μ') * L + ∑ k : Fin b, Real.exp (f k - μ') : ℝ) : EReal) := by
  rw [stepL, h, exp_coe_sub_coe, block_exp, ← EReal.coe_mul, ← EReal.coe_add]

/-- A numerator step from a real state. -/
theorem stepA_coe (μ μ' A : ℝ) (f g : Fin b → ℝ)
    (h : stepM (μ : EReal) (fun k => (f k : EReal)) = (μ' : EReal)) :
    stepA (μ : EReal) (A : EReal) (fun k => (f k : EReal)) (fun k => (g k : EReal))
      = ((Real.exp (μ - μ') * A + ∑ k : Fin b, Real.exp (f k - μ') * g k : ℝ) : EReal) := by
  rw [stepA, h, exp_coe_sub_coe, block_exp_mul, ← EReal.coe_mul, ← EReal.coe_add]

/-- The first denominator step: the rescale factor is exp (-∞) = 0. -/
theorem stepL_bot (μ' : ℝ) (f : Fin b → ℝ)
    (h : stepM ⊥ (fun k => (f k : EReal)) = (μ' : EReal)) :
    stepL ⊥ 0 (fun k => (f k : EReal)) = ((∑ k : Fin b, Real.exp (f k - μ') : ℝ) : EReal) := by
  rw [stepL, h, EReal.bot_sub, Ideal.exp_bot, zero_mul, zero_add, block_exp]

/-- The first numerator step. -/
theorem stepA_bot (μ' : ℝ) (f g : Fin b → ℝ)
    (h : stepM ⊥ (fun k => (f k : EReal)) = (μ' : EReal)) :
    stepA ⊥ 0 (fun k => (f k : EReal)) (fun k => (g k : EReal))
      = ((∑ k : Fin b, Real.exp (f k - μ') * g k : ℝ) : EReal) := by
  rw [stepA, h, EReal.bot_sub, Ideal.exp_bot, zero_mul, zero_add, block_exp_mul]

/-! ### The rescaled prefix sums -/

/-- Rescaling the first m terms from the shift μ to the shift μ' and adding the next b terms gives the
    first m + b terms at the shift μ'. -/
theorem rescale_add (σ w : ℕ → ℝ) (μ μ' : ℝ) (m b : ℕ) :
    Real.exp (μ - μ') * (∑ t ∈ Finset.range m, Real.exp (σ t - μ) * w t)
        + ∑ k : Fin b, Real.exp (σ (m + k.val) - μ') * w (m + k.val)
      = ∑ t ∈ Finset.range (m + b), Real.exp (σ t - μ') * w t := by
  rw [Finset.sum_range_add, Fin.sum_univ_eq_sum_range (fun k => Real.exp (σ (m + k) - μ') * w (m + k)) b,
    Finset.mul_sum]
  congr 1
  refine Finset.sum_congr rfl (fun t _ => ?_)
  rw [← mul_assoc, ← Real.exp_add]
  congr 2
  ring

/-- The same for the unweighted sums. -/
theorem rescale_add_one (σ : ℕ → ℝ) (μ μ' : ℝ) (m b : ℕ) :
    Real.exp (μ - μ') * (∑ t ∈ Finset.range m, Real.exp (σ t - μ))
        + ∑ k : Fin b, Real.exp (σ (m + k.val) - μ')
      = ∑ t ∈ Finset.range (m + b), Real.exp (σ t - μ') := by
  have h := rescale_add σ (fun _ => 1) μ μ' m b
  simp only [mul_one] at h
  exact h

/-- The first block's sum is the sum over the first b indices. -/
theorem first_block (g : ℕ → ℝ) (b : ℕ) :
    ∑ k : Fin b, g (0 * b + k.val) = ∑ t ∈ Finset.range ((0 + 1) * b), g t := by
  rw [Fin.sum_univ_eq_sum_range (fun k => g (0 * b + k)) b]
  simp only [Nat.zero_mul, Nat.zero_add, Nat.one_mul]

/-! ### The state after j ≥ 1 blocks -/

/-- After j + 1 blocks the state is (μ, ∑_{t < (j+1) b} exp (σ t - μ), ∑_{t < (j+1) b} exp (σ t - μ) * β t)
    for a real μ. -/
theorem state_real (hb : 0 < b) (σ β : ℕ → ℝ) (j : ℕ) :
    ∃ μ : ℝ,
      state (fun j (k : Fin b) => ((σ (j * b + k.val) : ℝ) : EReal))
          (fun j (k : Fin b) => ((β (j * b + k.val) : ℝ) : EReal)) (j + 1)
        = ((μ : EReal), ((∑ t ∈ Finset.range ((j + 1) * b), Real.exp (σ t - μ) : ℝ) : EReal),
            ((∑ t ∈ Finset.range ((j + 1) * b), Real.exp (σ t - μ) * β t : ℝ) : EReal)) := by
  induction j with
  | zero =>
    obtain ⟨μ', h⟩ := stepM_bot hb (fun k : Fin b => σ (0 * b + k.val))
    refine ⟨μ', ?_⟩
    rw [state_succ, state_zero]
    dsimp only
    rw [h, stepL_bot μ' _ h, stepA_bot μ' _ _ h,
      first_block (fun t => Real.exp (σ t - μ')) b,
      first_block (fun t => Real.exp (σ t - μ') * β t) b]
  | succ j ih =>
    obtain ⟨μ, ih⟩ := ih
    obtain ⟨μ', h⟩ := stepM_coe μ (fun k : Fin b => σ ((j + 1) * b + k.val))
    refine ⟨μ', ?_⟩
    rw [state_succ, ih]
    dsimp only
    rw [h, stepL_coe μ μ' _ _ h, stepA_coe μ μ' _ _ _ h, rescale_add_one, rescale_add,
      ← Nat.succ_mul]

/-! ### The softmax-weighted sum does not depend on the shift -/

/-- Subtracting μ or m from every score gives the same softmax-weighted sum: the common factor
    exp (m - μ) cancels in the quotient. -/
theorem softmax_shift (s : Finset ℕ) (σ β : ℕ → ℝ) (μ m : ℝ) :
    (∑ t ∈ s, Real.exp (σ t - μ) * β t) / (∑ t ∈ s, Real.exp (σ t - μ))
      = ∑ t ∈ s, Real.exp (σ t - m) / (∑ t' ∈ s, Real.exp (σ t' - m)) * β t := by
  have hc : ∀ t, Real.exp (σ t - μ) = Real.exp (m - μ) * Real.exp (σ t - m) := by
    intro t
    rw [← Real.exp_add]
    congr 1
    ring
  have h1 : ∑ t ∈ s, Real.exp (σ t - μ) * β t
      = Real.exp (m - μ) * ∑ t ∈ s, Real.exp (σ t - m) * β t := by
    rw [Finset.mul_sum]
    exact Finset.sum_congr rfl (fun t _ => by rw [hc t, mul_assoc])
  have h2 : ∑ t ∈ s, Real.exp (σ t - μ) = Real.exp (m - μ) * ∑ t ∈ s, Real.exp (σ t - m) := by
    rw [Finset.mul_sum]
    exact Finset.sum_congr rfl (fun t _ => hc t)
  rw [h1, h2, mul_div_mul_left _ _ (Real.exp_pos _).ne', Finset.sum_div]
  exact Finset.sum_congr rfl (fun t _ => by ring)

/-- A sum of exponentials over a nonempty range is not zero. -/
theorem sum_exp_ne_zero (σ : ℕ → ℝ) (m : ℝ) (N : ℕ) (hN : 0 < N) :
    (∑ t ∈ Finset.range N, Real.exp (σ t - m)) ≠ 0 :=
  (Finset.sum_pos (fun t _ => Real.exp_pos _) (Finset.nonempty_range_iff.2 hN.ne')).ne'

/-! ### The theorem -/

/-- After n > 0 blocks of length b > 0 the quotient A / L of the online recursion is the
    softmax-weighted sum of the n * b values (flat index t = j * b + k), the maximum being folded
    from -∞ and joined with -∞ once more and the denominator summed from 0. -/
theorem online_eq (n b : ℕ) (hn : 0 < n) (hb : 0 < b) (σ β : ℕ → ℝ) :
    Ideal.div
        (state (fun j (k : Fin b) => ((σ (j * b + k.val) : ℝ) : EReal))
          (fun j (k : Fin b) => ((β (j * b + k.val) : ℝ) : EReal)) n).2.2
        (state (fun j (k : Fin b) => ((σ (j * b + k.val) : ℝ) : EReal))
          (fun j (k : Fin b) => ((β (j * b + k.val) : ℝ) : EReal)) n).2.1
      = ∑ t : Fin (n * b),
          Ideal.div
            (Ideal.exp (((σ t.val : ℝ) : EReal)
              - max ⊥ ((Finset.univ : Finset (Fin (n * b))).fold max ⊥
                  (fun t => ((σ t.val : ℝ) : EReal)))))
            (0 + ∑ t' : Fin (n * b), Ideal.exp (((σ t'.val : ℝ) : EReal)
              - max ⊥ ((Finset.univ : Finset (Fin (n * b))).fold max ⊥
                  (fun t => ((σ t.val : ℝ) : EReal)))))
            * ((β t.val : ℝ) : EReal) := by
  obtain ⟨j, rfl⟩ : ∃ j, n = j + 1 := ⟨n - 1, by omega⟩
  obtain ⟨μ, hμ⟩ := state_real hb σ β j
  have hN : 0 < (j + 1) * b := Nat.mul_pos (Nat.succ_pos j) hb
  obtain ⟨m, hm⟩ := stepM_bot hN (fun t : Fin ((j + 1) * b) => σ t.val)
  rw [stepM] at hm
  rw [hμ, hm]
  dsimp only
  rw [div_coe_coe _ _ (sum_exp_ne_zero σ μ _ hN), softmax_shift _ σ β μ m, zero_add,
    block_exp m (fun t : Fin ((j + 1) * b) => σ t.val),
    Fin.sum_univ_eq_sum_range (fun t => Real.exp (σ t - m)) ((j + 1) * b), coe_sum,
    ← Fin.sum_univ_eq_sum_range
      (fun t => ((Real.exp (σ t - m) / (∑ t' ∈ Finset.range ((j + 1) * b), Real.exp (σ t' - m))
        * β t : ℝ) : EReal)) ((j + 1) * b)]
  refine Finset.sum_congr rfl (fun t _ => ?_)
  rw [exp_coe_sub_coe, div_coe_coe _ _ (sum_exp_ne_zero σ m _ hN), EReal.coe_mul]

/-- The same for extended-real scores and values that are all finite. -/
theorem online_eq_finite (n b : ℕ) (hn : 0 < n) (hb : 0 < b) (S B : ℕ → EReal)
    (hS : ∀ t, S t ≠ ⊤ ∧ S t ≠ ⊥) (hB : ∀ t, B t ≠ ⊤ ∧ B t ≠ ⊥) :
    Ideal.div
        (state (fun j (k : Fin b) => S (j * b + k.val)) (fun j (k : Fin b) => B (j * b + k.val)) n).2.2
        (state (fun j (k : Fin b) => S (j * b + k.val)) (fun j (k : Fin b) => B (j * b + k.val)) n).2.1
      = ∑ t : Fin (n * b),
          Ideal.div
            (Ideal.exp (S t.val
              - max ⊥ ((Finset.univ : Finset (Fin (n * b))).fold max ⊥ (fun t => S t.val))))
            (0 + ∑ t' : Fin (n * b), Ideal.exp (S t'.val
              - max ⊥ ((Finset.univ : Finset (Fin (n * b))).fold max ⊥ (fun t => S t.val))))
            * B t.val := by
  obtain ⟨σ, rfl⟩ : ∃ σ : ℕ → ℝ, S = fun t => ((σ t : ℝ) : EReal) :=
    ⟨fun t => (S t).toReal, funext fun t => (EReal.coe_toReal (hS t).1 (hS t).2).symm⟩
  obtain ⟨β, rfl⟩ : ∃ β : ℕ → ℝ, B = fun t => ((β t : ℝ) : EReal) :=
    ⟨fun t => (B t).toReal, funext fun t => (EReal.coe_toReal (hB t).1 (hB t).2).symm⟩
  exact online_eq n b hn hb σ β

end Cert.LibOnlineSoftmax

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.LibABt.lean ====
/-
  A matrix product with a transposed right factor, at the ideal instance, read at an entry.

  * `coe_finset_sum`: the inclusion of the reals in the extended reals commutes with a finite sum.
  * `sum_abt`: for a contraction record over shapes [m, K] × [n, K] → [m, n] with no batch axis, the rows of both operands
    free and the second axis of both contracted (A · Bᵀ), the sum over the contraction positions of the operands' products
    at the result entry (p, q) is ∑ k : Fin K, x (p, k) · y (q, k).
  * `matmul_abt`: so a matrix product of that form into the zero accumulator, over the extended reals, is that sum at
    (p, q). The record's six lists are given as equations, which `rfl` proves for a printed record.
  Generic in m, n, K and the operands' formats; imports only the library.
-/
import Idealize.ShloMosaic.Lib.ValueIdx
import Idealize.ShloMosaic.Lib.Pipeline.Value
import Idealize.ShloMosaic.PureOps.Ideal.Laws

noncomputable section

namespace Cert.LibABt

open Idealize.ShloMosaic Idealize.ShloMosaic.ValueIdx

/-! ## Finite sums of reals inside the extended reals -/

/-- The inclusion of the reals commutes with a finite sum. -/
theorem coe_finset_sum {ι : Type*} (s : Finset ι) (f : ι → ℝ) :
    ((∑ k ∈ s, f k : ℝ) : EReal) = ∑ k ∈ s, ((f k : ℝ) : EReal) := by
  classical
  refine Finset.induction_on s (by simp) fun a s ha ih => ?_
  rw [Finset.sum_insert ha, Finset.sum_insert ha, EReal.coe_add, ih]

/-! ## A product with a transposed right factor: contraction of the two second axes -/

section Dot
variable {m n K : ℕ} (D : DotDims ⟨2, ![m, K]⟩ ⟨2, ![n, K]⟩ ⟨2, ![m, n]⟩)

/-- The left operand's row is the result's row. -/
theorem lhs_row (hb : D.lhsBatch = []) (hn : D.lhsNonContracting = [0]) (j : (⟨2, ![m, n]⟩ : Shape).Idx)
    (k : D.contr.Idx) : (D.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hb, hn])

/-- The right operand's row is the result's column. -/
theorem rhs_row (hb : D.lhsBatch = []) (hb' : D.rhsBatch = []) (hn : D.lhsNonContracting = [0]) (hn' : D.rhsNonContracting = [0])
    (j : (⟨2, ![m, n]⟩ : Shape).Idx) (k : D.contr.Idx) : (D.rhsIdx j k 0).val = (j 1).val := by
  unfold DotDims.rhsIdx
  rw [dif_neg (by rw [hb']; exact List.not_mem_nil), dif_pos (by rw [hn']; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hb, hn, hn'])

end Dot

section Dot
variable {m n K : ℕ} (D : DotDims ⟨2, ![m, K]⟩ ⟨2, ![n, K]⟩ ⟨2, ![m, n]⟩)

/-- THE CONTRACTION AS A SUM OVER `Fin K`: with one contracting axis, the second of each operand, and no batch axis, the
    sum over the contraction positions of the operands' products at result index `(p, q)` is `∑ k, x (p, k) · y (q, k)`. -/
theorem sum_abt (hb : D.lhsBatch = []) (hb' : D.rhsBatch = []) (hn : D.lhsNonContracting = [0])
    (hn' : D.rhsNonContracting = [0]) (hc : D.lhsContracting = [1]) (hc' : D.rhsContracting = [1])
    (x : (⟨2, ![m, K]⟩ : Shape).Idx → EReal) (y : (⟨2, ![n, K]⟩ : Shape).Idx → EReal) (p : Fin m) (q : Fin n) :
    ∑ k : D.contr.Idx, x (D.lhsIdx (ix2 p q) k) * y (D.rhsIdx (ix2 p q) k) = ∑ k : Fin K, x (ix2 p k) * y (ix2 q k) := by
  have hr : D.contr.rank = 1 := by rw [D.rank_contr, hc]; rfl
  have hs : D.contr.size ⟨0, by omega⟩ = K := by
    rw [D.size_contr 0 (by rw [hc]; exact Nat.one_pos)]
    simp [hc]
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hb hn _ _
    | ⟨1, _⟩ => exact (D.lhsIdx_val_of_single hc _ _).trans hk)
  have er : D.rhsIdx (ix2 p q) ((contrEquiv1 D K hr hs).symm k) = ix2 q k := funext fun a => Fin.ext (by
    match a with
    | ⟨0, _⟩ => exact rhs_row D hb hb' hn hn' _ _
    | ⟨1, _⟩ => exact (D.rhsIdx_val_of_single hc' _ _).trans hk)
  rw [el, er]

/-- A `tpu.matmul` into the zero accumulator, of that form, read at `(p, q)`. -/
theorem matmul_abt (hb : D.lhsBatch = []) (hb' : D.rhsBatch = []) (hn : D.lhsNonContracting = [0])
    (hn' : D.rhsNonContracting = [0]) (hc : D.lhsContracting = [1]) (hc' : D.rhsContracting = [1]) {φ₁ φ₂ : FTy}
    (x : FVec Ideal ⟨2, ![m, K]⟩ φ₁) (y : FVec Ideal ⟨2, ![n, K]⟩ φ₂) (p : Fin m) (q : Fin n) :
    matmul (F := Ideal) D none x y (constant (F := Ideal) ⟨2, ![m, n]⟩ .f32 0x00000000#32) (ix2 p q)
      = ∑ k : Fin K, x (ix2 p k) * y (ix2 q k) :=
  (Ideal.matmul_constant_zero_apply D none x y (ix2 p q)).trans (sum_abt D hb hb' hn hn' hc hc' x y p q)

end Dot

end Cert.LibABt

end
-- ==== Proof.LibRowReduce.lean ====
/-
  Reductions along the rows of a matrix read at a row, on the extended reals (generic in the extents, imports only the
  library): the reduced index with the lane coordinate put back (`lift_row`, which also serves the host's reduce over
  the same axis), a kernel's lane maximum and lane sum over the last axis of an [a, b] array as the fold of max from the
  accumulator's value, or the sum, over the row's entries; and joining the initial value once more onto a maximum
  folded from it changes nothing.
-/
import Idealize.ShloMosaic.PureOps.Ideal.Laws
import Idealize.ShloMosaic.PureOps.Reduce
import Idealize.ShloMosaic.Lib.ValueIdx

noncomputable section

namespace Cert.LibRowReduce

open Idealize.ShloMosaic Idealize.ShloMosaic.ValueIdx

variable {a b : ℕ}

/-- The reduced index p with the lane coordinate l put back is (p, l). -/
theorem lift_row (h : (⟨2, ![a, b]⟩ : Shape).Reduces [1] (⟨1, ![a]⟩ : Shape)) (p : Fin a)
    (l : Fin ((⟨2, ![a, b]⟩ : Shape).size 1)) : h.lift (ix1 p) l = ix2 p (⟨l.val, l.isLt⟩ : Fin b) := by
  funext c; apply Fin.ext
  fin_cases c <;> rfl

/-- A kernel's lane maximum over the last axis, at row p: the fold of max from the accumulator's value over the row. -/
theorem laneMax_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun l => src (ix2 p l)) := by
  refine (Ideal.multiReduction_maximumf_single src acc h hφ hacc (ix1 p)).trans ?_
  exact congrArg (fun f => Finset.fold max (Ideal.ofBits .f32 acc) f (Finset.univ : Finset (Fin b)))
    (funext fun l => congrArg src (lift_row h p l))

/-- A kernel's lane sum over the last axis, at row p: the sum over the row. -/
theorem laneSum_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  exact Finset.sum_congr rfl fun l _ => congrArg src (lift_row h p l)

/-- A maximum folded from an initial value is above it, so joining the initial value once more changes nothing. -/
theorem max_fold_self {ι : Type*} (s : Finset ι) (c : EReal) (f : ι → EReal) : max c (s.fold max c f) = s.fold max c f :=
  max_eq_right (Finset.le_fold_max c |>.mpr (Or.inl le_rfl))

end Cert.LibRowReduce

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibSoftmax.lean ====
/-
  The row law of a softmax-weighted sum over the extended reals (general: any row length, imports only the library).
  `rmax` (a row's maximum folded from an initial value), `scaledSum` and `weightedSum` (the two arrangements below),
  `weightedSum_eq_scaledSum` (they agree on finite rows), `rmax_real`, `coe_sum` (the coercion of a finite real sum),
  `sum_mul_finite` (a finite sum of products of finite extended reals is finite), and the binary32 patterns of `-∞`
  and `1.0` as the extended reals they denote.

  A row of scores `s n` (n < N) and a column of values `β n`.  With `M` the row's maximum taken from `-∞`,
  `e n = exp (s n - M)` and `l = ∑ e n`, one program normalises the weights first and then sums,
  `∑ (e n / l) · β n`, the other sums first and scales the sum by the reciprocal, `(∑ e n · β n) · (1 / l)`.
  When every score and every value is a real number the maximum is a real, every `e n` is a positive real, `l` is a
  positive real, and the two are the same real number: the factor `1 / l` moves across the finite sum.
  (At an infinite score or value the distributive law fails on the extended reals; finiteness is used.)
-/
import Idealize.ShloMosaic.PureOps.Ideal
import Idealize.ShloMosaic.PureOps.Ideal.Laws
import Mathlib.Algebra.BigOperators.Ring.Finset
import Mathlib.Algebra.Order.BigOperators.Ring.Finset
import Mathlib.Tactic.Ring
import Mathlib.Tactic.FieldSimp

noncomputable section

namespace Cert.LibSoftmax

open Idealize.ShloMosaic
open scoped BigOperators

variable {N : ℕ}

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A row's maximum, folded from the initial value `b`. -/
def rmax (b : EReal) (s : Fin N → EReal) : EReal := (Finset.univ : Finset (Fin N)).fold max b s

/-- Sum first, then scale by the reciprocal of the normaliser: `(∑ e n · β n) · (one / ∑ e n)`. -/
def scaledSum (b one : EReal) (s β : Fin N → EReal) : EReal :=
  (∑ n, Ideal.exp (s n - rmax b s) * β n) * Ideal.div one (∑ n, Ideal.exp (s n - rmax b s))

/-- Normalise first, then sum: `∑ (e n / (z + ∑ e n)) · β n`, the maximum joined once more with its initial value. -/
def weightedSum (b z : EReal) (s β : Fin N → EReal) : EReal :=
  ∑ n, Ideal.div (Ideal.exp (s n - max b (rmax b s))) (z + ∑ n', Ideal.exp (s n' - max b (rmax b s))) * β n

/-- The maximum from `-∞` of a nonempty row of reals is a real. -/
theorem rmax_real (hN : 0 < N) (σ : Fin N → ℝ) : ∃ μ : ℝ, rmax ⊥ (fun n => (σ n : EReal)) = (μ : EReal) := by
  have hlt : rmax ⊥ (fun n => (σ n : EReal)) < ⊤ := by
    unfold rmax
    rw [Finset.fold_max_lt]
    exact ⟨bot_lt_top, fun n _ => EReal.coe_lt_top _⟩
  have hgt : ⊥ < rmax ⊥ (fun n => (σ n : EReal)) := by
    refine lt_of_lt_of_le (EReal.bot_lt_coe (σ ⟨0, hN⟩)) ?_
    unfold rmax
    rw [Finset.le_fold_max]
    exact Or.inr ⟨⟨0, hN⟩, Finset.mem_univ _, le_refl _⟩
  exact ⟨(rmax ⊥ (fun n => (σ n : EReal))).toReal, (EReal.coe_toReal hlt.ne hgt.ne').symm⟩

/-- THE LAW, on real witnesses: normalising the weights before the sum or scaling the sum afterwards is the same. -/
theorem weightedSum_eq_scaledSum_coe (hN : 0 < N) (σ β : Fin N → ℝ) :
    weightedSum ⊥ 0 (fun n => (σ n : EReal)) (fun n => (β n : EReal))
      = scaledSum ⊥ 1 (fun n => (σ n : EReal)) (fun n => (β n : EReal)) := by
  obtain ⟨μ, hμ⟩ := rmax_real hN σ
  unfold weightedSum scaledSum
  rw [max_eq_right bot_le, hμ, zero_add]
  simp only [← EReal.coe_sub, Ideal.exp_coe]
  have hl : 0 < ∑ n, Real.exp (σ n - μ) :=
    Finset.sum_pos (fun n _ => Real.exp_pos _) ⟨⟨0, hN⟩, Finset.mem_univ _⟩
  rw [← coe_sum]
  simp only [Ideal.div_coe hl.ne', ← EReal.coe_mul]
  rw [← coe_sum, ← coe_sum, ← EReal.coe_one, ← EReal.coe_mul, ← EReal.coe_mul, Finset.sum_mul]
  congr 1
  refine Finset.sum_congr rfl fun n _ => ?_
  ring

/-- THE LAW on extended reals that are all finite. -/
theorem weightedSum_eq_scaledSum (hN : 0 < N) (s β : Fin N → EReal)
    (hs : ∀ n, s n ≠ ⊤ ∧ s n ≠ ⊥) (hβ : ∀ n, β n ≠ ⊤ ∧ β n ≠ ⊥) :
    weightedSum ⊥ 0 s β = scaledSum ⊥ 1 s β := by
  obtain ⟨σ, rfl⟩ : ∃ σ : Fin N → ℝ, s = fun n => (σ n : EReal) :=
    ⟨fun n => (s n).toReal, funext fun n => (EReal.coe_toReal (hs n).1 (hs n).2).symm⟩
  obtain ⟨β', rfl⟩ : ∃ β' : Fin N → ℝ, β = fun n => (β' n : EReal) :=
    ⟨fun n => (β n).toReal, funext fun n => (EReal.coe_toReal (hβ n).1 (hβ n).2).symm⟩
  exact weightedSum_eq_scaledSum_coe hN σ β'

/-- A finite sum of products of finite extended reals is finite. -/
theorem sum_mul_finite {K : ℕ} (x y : Fin K → EReal) (hx : ∀ k, x k ≠ ⊤ ∧ x k ≠ ⊥) (hy : ∀ k, y k ≠ ⊤ ∧ y k ≠ ⊥) :
    (∑ k, x k * y k) ≠ ⊤ ∧ (∑ k, x k * y k) ≠ ⊥ := by
  obtain ⟨x', rfl⟩ : ∃ x' : Fin K → ℝ, x = fun n => (x' n : EReal) :=
    ⟨fun n => (x n).toReal, funext fun n => (EReal.coe_toReal (hx n).1 (hx n).2).symm⟩
  obtain ⟨y', rfl⟩ : ∃ y' : Fin K → ℝ, y = fun n => (y' n : EReal) :=
    ⟨fun n => (y n).toReal, funext fun n => (EReal.coe_toReal (hy n).1 (hy n).2).symm⟩
  simp only [← EReal.coe_mul]
  rw [← coe_sum]
  exact ⟨EReal.coe_ne_top _, EReal.coe_ne_bot _⟩

/-- The binary32 pattern of `-∞` denotes the bottom of the extended reals. -/
theorem ofBits_neg_inf : Ideal.ofBits .f32 0xFF800000#32 = ⊥ := by
  simp [Ideal.ofBits, Ideal.ieee]

/-- The binary32 pattern of `1.0` denotes `1`. -/
theorem ofBits_one : Ideal.ofBits .f32 0x3F800000#32 = 1 :=
  IdealRules.sign_bit.ideal_onePat .f32

end Cert.LibSoftmax

end
-- ==== Proof.PayProj.lean ====
/-
  The projection kernel's three results at the ideal instance, entry by entry: a block of 1024 input rows times a
  weight matrix, the query block also times the constant 1/32. The narrowing format changes are the identity on
  extended reals and the product into the zero accumulator is the plain sum over the shared axis.
-/
import proofs.«141828_j90855738180063_2_alg».proof.Proof.AttnState
import proofs.«141828_j90855738180063_2_alg».proof.Proof.LibPlainDot
import Idealize.ShloMosaic.Lib.ValueIdx
import Idealize.ShloMosaic.Lib.Pipeline.Value

noncomputable section

namespace Cert.KernelIdeal.AttnRows

open Idealize.ShloMosaic Idealize.ShloMosaic.ValueIdx Cert.KernelIdeal Cert.KernelIdeal.Gen Cert.KernelIdeal.Attn

/-- The projection kernel's product contracts the left factor's columns with the right factor's rows. -/
theorem plain_dims : Cert.LibPlainDot.IsPlain dot_S1024x1024_S1024x1024_S1024x1024_1_0_0_1_n_n :=
  ⟨rfl, rfl, rfl, rfl, rfl, rfl⟩

/-- The binary32 word 0x3D000000 denotes 1/32. -/
theorem ofBits_inv32 : Ideal.ofBits .f32 0x3D000000#32 = (((1 : ℝ) / 32 : ℝ) : EReal) := by
  simp [Ideal.ofBits, Ideal.ieee, -EReal.coe_mul]; norm_num

/-- A key block's entry (r, d): row r of the input block against column d of the weights. -/
theorem kBlk_apply (xb : Vec Ideal S1024x1024 .f32) (w : Vec Ideal S1024x1024 .bf16) (r d : Fin 1024) :
    kBlk xb w (ix2 r d) = ∑ k : Fin 1024, xb (ix2 r k) * w (ix2 k d) := by
  unfold kBlk k0_pay3
  rw [shapeCast_self, truncf_apply]
  exact Cert.LibPlainDot.matmul_zero_apply (φ₁ := .bf16) (φ₂ := .bf16) _ plain_dims none (k0_pay1 xb) w r d

/-- A value block's entry (r, d). -/
theorem vBlk_apply (xb : Vec Ideal S1024x1024 .f32) (w : Vec Ideal S1024x1024 .bf16) (r d : Fin 1024) :
    vBlk xb w (ix2 r d) = ∑ k : Fin 1024, xb (ix2 r k) * w (ix2 k d) := by
  unfold vBlk k0_pay4
  rw [shapeCast_self, truncf_apply]
  exact Cert.LibPlainDot.matmul_zero_apply (φ₁ := .bf16) (φ₂ := .bf16) _ plain_dims none (k0_pay1 xb) w r d

/-- A query block's entry (r, d): the same product, times 1/32. -/
theorem qBlk_apply (xb : Vec Ideal S1024x1024 .f32) (w : Vec Ideal S1024x1024 .bf16) (r d : Fin 1024) :
    qBlk xb w (ix2 r d) = (∑ k : Fin 1024, xb (ix2 r k) * w (ix2 k d)) * (((1 : ℝ) / 32 : ℝ) : EReal) := by
  unfold qBlk k0_pay2
  rw [shapeCast_self, truncf_apply, mulf_apply, broadcast_apply, ← ofBits_inv32]
  exact congrArg (· * Ideal.ofBits .f32 0x3D000000#32)
    (Cert.LibPlainDot.matmul_zero_apply (φ₁ := .bf16) (φ₂ := .bf16) _ plain_dims none (k0_pay1 xb) w r d)

end Cert.KernelIdeal.AttnRows

end
-- ==== Proof.PayAttn.lean ====
/-
  The attention kernel's arithmetic at the ideal instance, entry by entry: the scores of a query block against a key
  block (each query row against each key row), the running maximum joined with a row's maximum, the rescale factor,
  the exponentials of the shifted scores, the running denominator and numerator, the final quotient, and the three
  initial constants. The format changes and same-shape casts are the identity on extended reals.
-/
import proofs.«141828_j90855738180063_2_alg».proof.Proof.AttnState
import proofs.«141828_j90855738180063_2_alg».proof.Proof.LibPlainDot
import proofs.«141828_j90855738180063_2_alg».proof.Proof.LibABt
import proofs.«141828_j90855738180063_2_alg».proof.Proof.LibRowReduce
import proofs.«141828_j90855738180063_2_alg».proof.Proof.LibLayout
import proofs.«141828_j90855738180063_2_alg».proof.Proof.LibSoftmax
import proofs.«141828_j90855738180063_2_alg».proof.Proof.LibOnlineSoftmax
import proofs.«141828_j90855738180063_2_alg».proof.Proof.PayProj
import Idealize.ShloMosaic.Lib.ValueIdx
import Idealize.ShloMosaic.Lib.Pipeline.Value

noncomputable section

namespace Cert.KernelIdeal.AttnRows

open Idealize.ShloMosaic Idealize.ShloMosaic.ValueIdx Cert.KernelIdeal Cert.KernelIdeal.Gen Cert.KernelIdeal.Attn

open Cert.LibOnlineSoftmax

/-- An exponential of a vector at an index is the exponential of the element. -/
theorem exp_apply {s : Shape} {φ : FTy} (a : FVec Ideal s φ) (i : s.Idx) : exp a i = Ideal.exp (a i) := rfl

/-- The scores: query row r against key row j. -/
theorem pay7_apply (q k : Vec Ideal S1024x1024 .bf16) (r j : Fin 1024) :
    k1_pay7 q k (ix2 r j) = ∑ d : Fin 1024, q (ix2 r d) * k (ix2 j d) := by
  unfold k1_pay7
  rw [shapeCast_self, shapeCast_self]
  exact Cert.LibABt.matmul_abt _ rfl rfl rfl rfl rfl rfl _ _ r j

/-- The new running maximum of row r: the old one joined with the maximum (from -∞) of the row's scores. -/
theorem pay8_apply (q k : Vec Ideal S1024x1024 .bf16) (m : Vec Ideal S1024x1 .f32) (r : Fin 1024) :
    k1_pay8 q k m (ix2 r (0 : Fin 1)) = stepM (m (ix2 r (0 : Fin 1))) (fun j : Fin 1024 => k1_pay7 q k (ix2 r j)) := by
  unfold k1_pay8 stepM
  rw [maximumf_apply]
  refine congrArg (max (m (ix2 r (0 : Fin 1)))) ?_
  refine (Cert.LibLayout.shapeCast_a_a1_apply _ _ r 0).trans ?_
  refine (Cert.LibRowReduce.laneMax_apply (k1_pay7 q k) 0xFF800000#32 reduces_S1024x1024_S1024 (.inl rfl) rfl r).trans ?_
  rw [Cert.LibSoftmax.ofBits_neg_inf]

/-- The rescale factor of row r. -/
theorem pay9_apply (q k : Vec Ideal S1024x1024 .bf16) (m m' : Vec Ideal S1024x1 .f32) (r : Fin 1024) :
    k1_pay9 q k m m' (ix2 r (0 : Fin 1)) = Ideal.exp (m' (ix2 r (0 : Fin 1)) - k1_pay8 q k m (ix2 r (0 : Fin 1))) := by
  unfold k1_pay9
  rw [exp_apply, subf_apply]

/-- The exponential of a score shifted by its row's new maximum. -/
theorem pay10_apply (q k : Vec Ideal S1024x1024 .bf16) (m : Vec Ideal S1024x1 .f32) (r j : Fin 1024) :
    k1_pay10 q k m (ix2 r j) = Ideal.exp (k1_pay7 q k (ix2 r j) - k1_pay8 q k m (ix2 r (0 : Fin 1))) := by
  unfold k1_pay10
  rw [exp_apply, subf_apply, Cert.LibLayout.broadcastTo_a1_ab_apply]

/-- The new running denominator of row r. -/
theorem pay11_apply (q k : Vec Ideal S1024x1024 .bf16) (m l : Vec Ideal S1024x1 .f32) (r : Fin 1024) :
    k1_pay11 q k m m l (ix2 r (0 : Fin 1))
      = stepL (m (ix2 r (0 : Fin 1))) (l (ix2 r (0 : Fin 1))) (fun j : Fin 1024 => k1_pay7 q k (ix2 r j)) := by
  unfold k1_pay11 stepL
  rw [shapeCast_self, addf_apply, mulf_apply, pay9_apply, pay8_apply]
  refine congrArg (Ideal.exp (m (ix2 r (0 : Fin 1)) - stepM (m (ix2 r (0 : Fin 1))) (fun j : Fin 1024 => k1_pay7 q k (ix2 r j)))
    * l (ix2 r (0 : Fin 1)) + ·) ?_
  refine (Cert.LibLayout.shapeCast_a_a1_apply _ _ r 0).trans ?_
  refine (Cert.LibRowReduce.laneSum_apply (k1_pay10 q k m) 0x00000000#32 reduces_S1024x1024_S1024 (.inl rfl) rfl r).trans ?_
  refine Finset.sum_congr rfl fun j _ => ?_
  rw [pay10_apply, pay8_apply]

/-- The new running numerator at (r, e). -/
theorem pay12_apply (q k : Vec Ideal S1024x1024 .bf16) (m : Vec Ideal S1024x1 .f32) (acc : Vec Ideal S1024x1024 .f32)
    (v : Vec Ideal S1024x1024 .bf16) (r e : Fin 1024) :
    k1_pay12 q k m m acc v (ix2 r e)
      = stepA (m (ix2 r (0 : Fin 1))) (acc (ix2 r e)) (fun j : Fin 1024 => k1_pay7 q k (ix2 r j))
          (fun j : Fin 1024 => v (ix2 j e)) := by
  unfold k1_pay12 stepA
  rw [shapeCast_self, addf_apply, mulf_apply, Cert.LibLayout.broadcastTo_a1_ab_apply, pay9_apply, pay8_apply]
  refine congrArg (Ideal.exp (m (ix2 r (0 : Fin 1)) - stepM (m (ix2 r (0 : Fin 1))) (fun j : Fin 1024 => k1_pay7 q k (ix2 r j)))
    * acc (ix2 r e) + ·) ?_
  refine (Cert.LibPlainDot.matmul_zero_apply (φ₁ := .bf16) (φ₂ := .bf16) _ plain_dims none
    (truncf .bf16 (k1_pay10 q k m) bitsLt_bf16_f32) v r e).trans ?_
  refine Finset.sum_congr rfl fun j _ => ?_
  rw [truncf_apply, pay10_apply, pay8_apply]

/-- The output at (r, e): numerator over the row's denominator. -/
theorem pay3_apply (acc : Vec Ideal S1024x1024 .f32) (l : Vec Ideal S1024x1 .f32) (r e : Fin 1024) :
    k1_pay3 acc l (ix2 r e) = Ideal.div (acc (ix2 r e)) (l (ix2 r (0 : Fin 1))) := by
  unfold k1_pay3
  rw [divf_apply, Cert.LibLayout.broadcastTo_a1_ab_apply]

/-- The initial maximum is -∞. -/
theorem pay4_apply (r : Fin 1024) : k1_pay4 (F := Ideal) (ix2 r (0 : Fin 1)) = ⊥ := by
  unfold k1_pay4
  rw [shapeCast_self, broadcast_apply]
  exact Cert.LibSoftmax.ofBits_neg_inf

/-- The initial denominator is 0. -/
theorem pay5_apply (r : Fin 1024) : k1_pay5 (F := Ideal) (ix2 r (0 : Fin 1)) = 0 := by
  unfold k1_pay5
  rw [shapeCast_self, broadcast_apply]
  exact Ideal.ofBits_zero_f32

/-- The initial numerator is 0. -/
theorem pay6_apply (r e : Fin 1024) : k1_pay6 (F := Ideal) (ix2 r e) = 0 := by
  unfold k1_pay6
  rw [shapeCast_self, broadcast_apply]
  exact Ideal.ofBits_zero_f32

/-- The two same-shape casts in a step are the identity. -/
theorem pay1_eq (x : FVec Ideal S1024x1024 .f32) : k1_pay1 x = x := shapeCast_self x _
theorem pay2_eq (x : FVec Ideal S1024x1 .f32) : k1_pay2 x = x := shapeCast_self x _

end Cert.KernelIdeal.AttnRows

end
-- ==== Proof.RowLaw.lean ====
/-
  Row r of the attention kernel's state after n blocks of keys is the online-softmax recursion run on that row: the
  scores of block n are the query row against the block's key rows, the values the block's value rows at column e.
-/
import proofs.«141828_j90855738180063_2_alg».proof.Proof.AttnState
import proofs.«141828_j90855738180063_2_alg».proof.Proof.LibOnlineSoftmax
import proofs.«141828_j90855738180063_2_alg».proof.Proof.PayAttn
import Idealize.ShloMosaic.Lib.ValueIdx

noncomputable section

namespace Cert.KernelIdeal.AttnRows

open Idealize.ShloMosaic Idealize.ShloMosaic.ValueIdx Cert.KernelIdeal Cert.KernelIdeal.Gen Cert.KernelIdeal.Attn

open Cert.LibOnlineSoftmax

/-- The row's maximum, denominator and numerator after n blocks are the recursion's state. -/
theorem row_state (q : Vec Ideal S1024x1024 .bf16) (kb vb : ℕ → Vec Ideal S1024x1024 .bf16) (r e : Fin 1024) (n : ℕ) :
    ((stAfter q kb vb n).m (ix2 r (0 : Fin 1)), (stAfter q kb vb n).l (ix2 r (0 : Fin 1)), (stAfter q kb vb n).acc (ix2 r e))
      = state (fun n (j : Fin 1024) => k1_pay7 q (kb n) (ix2 r j)) (fun n (j : Fin 1024) => vb n (ix2 j e)) n := by
  induction n with
  | zero =>
    rw [stAfter_zero, state_zero]
    unfold St.init
    dsimp only
    rw [pay4_apply, pay5_apply, pay6_apply]
  | succ n ih =>
    rw [stAfter_succ, state_succ, ← ih]
    unfold St.step
    dsimp only
    rw [pay2_eq, pay1_eq, pay8_apply, pay11_apply, pay12_apply]

/-- The output at (r, e) after n blocks: the recursion's numerator over its denominator. -/
theorem out_row (q : Vec Ideal S1024x1024 .bf16) (kb vb : ℕ → Vec Ideal S1024x1024 .bf16) (r e : Fin 1024) (n : ℕ) :
    (stAfter q kb vb n).out (ix2 r e)
      = Ideal.div (state (fun n (j : Fin 1024) => k1_pay7 q (kb n) (ix2 r j)) (fun n (j : Fin 1024) => vb n (ix2 j e)) n).2.2
          (state (fun n (j : Fin 1024) => k1_pay7 q (kb n) (ix2 r j)) (fun n (j : Fin 1024) => vb n (ix2 j e)) n).2.1 := by
  rw [← row_state q kb vb r e n]
  unfold St.out
  exact pay3_apply _ _ r e

end Cert.KernelIdeal.AttnRows

end
-- ==== Proof.Finite.lean ====
/-
  Two facts about finite extended reals: a finite one times a real is finite, and a real scale on every left factor
  of a sum of products of finite entries moves out of the sum (through the reals, where multiplication distributes).
-/
import Idealize.ShloMosaic.PureOps.Ideal
import proofs.«141828_j90855738180063_2_alg».proof.Proof.LibSoftmax
import Mathlib.Tactic.Ring

noncomputable section

namespace Cert.KernelIdeal.AttnRows

open Idealize.ShloMosaic Cert.LibSoftmax

/-- A finite extended real times a real is finite. -/
theorem mul_coe_finite (x : EReal) (hx : x ≠ ⊤ ∧ x ≠ ⊥) (c : ℝ) : x * (c : EReal) ≠ ⊤ ∧ x * (c : EReal) ≠ ⊥ := by
  obtain ⟨x', rfl⟩ : ∃ x' : ℝ, x = (x' : EReal) := ⟨x.toReal, (EReal.coe_toReal hx.1 hx.2).symm⟩
  rw [← EReal.coe_mul]
  exact ⟨EReal.coe_ne_top _, EReal.coe_ne_bot _⟩

/-- A real scale on every left factor of a sum of products of finite entries moves out of the sum. -/
theorem sum_scale_left {n : ℕ} (a b : Fin n → EReal) (ha : ∀ d, a d ≠ ⊤ ∧ a d ≠ ⊥) (hb : ∀ d, b d ≠ ⊤ ∧ b d ≠ ⊥)
    (c : ℝ) : ∑ d, (a d * (c : EReal)) * b d = (∑ d, a d * b d) * (c : EReal) := by
  obtain ⟨a', rfl⟩ : ∃ a' : Fin n → ℝ, a = fun d => (a' d : EReal) :=
    ⟨fun d => (a d).toReal, funext fun d => (EReal.coe_toReal (ha d).1 (ha d).2).symm⟩
  obtain ⟨b', rfl⟩ : ∃ b' : Fin n → ℝ, b = fun d => (b' d : EReal) :=
    ⟨fun d => (b d).toReal, funext fun d => (EReal.coe_toReal (hb d).1 (hb d).2).symm⟩
  simp only [← EReal.coe_mul]
  rw [← coe_sum, ← coe_sum, ← EReal.coe_mul, Finset.sum_mul]
  congr 1
  exact Finset.sum_congr rfl fun d _ => by ring

end Cert.KernelIdeal.AttnRows

end
-- ==== Proof.Scores.lean ====
/-
  The scores and values the attention kernel sees in block n are those of the whole sequence: with the input cut into
  blocks of 1024 rows, row j of block n is row n * 1024 + j, a projected entry is a finite sum of products of finite
  entries, and the query's scale 1/32 on every left factor of a score's sum moves out of the sum.
-/
import proofs.«141828_j90855738180063_2_alg».proof.Proof.AttnState
import proofs.«141828_j90855738180063_2_alg».proof.Proof.PayProj
import proofs.«141828_j90855738180063_2_alg».proof.Proof.PayAttn
import proofs.«141828_j90855738180063_2_alg».proof.Proof.Finite
import proofs.«141828_j90855738180063_2_alg».proof.Proof.LibSoftmax
import Idealize.ShloMosaic.Lib.ValueIdx

noncomputable section

namespace Cert.KernelIdeal.AttnRows

open Idealize.ShloMosaic Idealize.ShloMosaic.ValueIdx Cert.KernelIdeal Cert.KernelIdeal.Gen Cert.KernelIdeal.Attn

open Cert.LibSoftmax

/-- Row t of the whole input, read from the block that holds it. -/
def xrow (xb : ℕ → Vec Ideal S1024x1024 .f32) (t : ℕ) (k : Fin 1024) : EReal :=
  xb (t / 1024) (ix2 (⟨t % 1024, Nat.mod_lt _ (by norm_num)⟩ : Fin 1024) k)

/-- Row j of block n is row n * 1024 + j of the whole input. -/
theorem xrow_blk (xb : ℕ → Vec Ideal S1024x1024 .f32) (n : ℕ) (j k : Fin 1024) :
    xrow xb (n * 1024 + j.val) k = xb n (ix2 j k) := by
  have key : ∀ (a : ℕ) (b : Fin 1024), a = n → b = j → xb a (ix2 b k) = xb n (ix2 j k) := by
    rintro _ _ rfl rfl; rfl
  exact key _ _ (by have := j.isLt; omega) (Fin.ext (by have := j.isLt; show (n * 1024 + j.val) % 1024 = j.val; omega))

/-- Every entry of the whole input is finite. -/
theorem xrow_finite (xb : ℕ → Vec Ideal S1024x1024 .f32) (hx : ∀ n j, xb n j ≠ ⊤ ∧ xb n j ≠ ⊥) (t : ℕ) (k : Fin 1024) :
    xrow xb t k ≠ ⊤ ∧ xrow xb t k ≠ ⊥ := hx _ _

/-- The score of input row i against input row t: the two projected rows' product, times 1/32. -/
def rowScore (xb : ℕ → Vec Ideal S1024x1024 .f32) (w1 w2 : Vec Ideal S1024x1024 .bf16) (i t : ℕ) : EReal :=
  (∑ d : Fin 1024, (∑ k : Fin 1024, xrow xb i k * w1 (ix2 k d)) * (∑ k : Fin 1024, xrow xb t k * w2 (ix2 k d)))
    * (((1 : ℝ) / 32 : ℝ) : EReal)

/-- The value of input row t at column e. -/
def rowVal (xb : ℕ → Vec Ideal S1024x1024 .f32) (w3 : Vec Ideal S1024x1024 .bf16) (e : Fin 1024) (t : ℕ) : EReal :=
  ∑ k : Fin 1024, xrow xb t k * w3 (ix2 k e)

theorem rowScore_finite (xb : ℕ → Vec Ideal S1024x1024 .f32) (w1 w2 : Vec Ideal S1024x1024 .bf16)
    (hx : ∀ n j, xb n j ≠ ⊤ ∧ xb n j ≠ ⊥) (hw1 : ∀ j, w1 j ≠ ⊤ ∧ w1 j ≠ ⊥) (hw2 : ∀ j, w2 j ≠ ⊤ ∧ w2 j ≠ ⊥) (i t : ℕ) :
    rowScore xb w1 w2 i t ≠ ⊤ ∧ rowScore xb w1 w2 i t ≠ ⊥ :=
  mul_coe_finite _ (sum_mul_finite _ _
    (fun d => sum_mul_finite _ _ (fun k => xrow_finite xb hx i k) (fun k => hw1 _))
    (fun d => sum_mul_finite _ _ (fun k => xrow_finite xb hx t k) (fun k => hw2 _))) _

theorem rowVal_finite (xb : ℕ → Vec Ideal S1024x1024 .f32) (w3 : Vec Ideal S1024x1024 .bf16)
    (hx : ∀ n j, xb n j ≠ ⊤ ∧ xb n j ≠ ⊥) (hw3 : ∀ j, w3 j ≠ ⊤ ∧ w3 j ≠ ⊥) (e : Fin 1024) (t : ℕ) :
    rowVal xb w3 e t ≠ ⊤ ∧ rowVal xb w3 e t ≠ ⊥ :=
  sum_mul_finite _ _ (fun k => xrow_finite xb hx t k) (fun k => hw3 _)

/-- The kernel's score of query row r of block qi against key row j of block n. -/
theorem score_blk (xb : ℕ → Vec Ideal S1024x1024 .f32) (w1 w2 : Vec Ideal S1024x1024 .bf16)
    (hx : ∀ n j, xb n j ≠ ⊤ ∧ xb n j ≠ ⊥) (hw1 : ∀ j, w1 j ≠ ⊤ ∧ w1 j ≠ ⊥) (hw2 : ∀ j, w2 j ≠ ⊤ ∧ w2 j ≠ ⊥)
    (qi n : ℕ) (r j : Fin 1024) :
    k1_pay7 (qBlk (xb qi) w1) (kBlk (xb n) w2) (ix2 r j) = rowScore xb w1 w2 (qi * 1024 + r.val) (n * 1024 + j.val) := by
  rw [pay7_apply]
  unfold rowScore
  simp only [qBlk_apply, kBlk_apply, xrow_blk]
  exact sum_scale_left _ _
    (fun d => sum_mul_finite _ _ (fun k => hx qi _) (fun k => hw1 _))
    (fun d => sum_mul_finite _ _ (fun k => hx n _) (fun k => hw2 _)) _

/-- The kernel's value row j of block n at column e. -/
theorem val_blk (xb : ℕ → Vec Ideal S1024x1024 .f32) (w3 : Vec Ideal S1024x1024 .bf16) (n : ℕ) (j e : Fin 1024) :
    vBlk (xb n) w3 (ix2 j e) = rowVal xb w3 e (n * 1024 + j.val) := by
  rw [vBlk_apply]
  unfold rowVal
  simp only [xrow_blk]

end Cert.KernelIdeal.AttnRows

end
-- ==== Proof.AttnRows.lean ====
/-
  One block of 1024 query rows of the attention kernel, at the ideal instance, computes single-head attention over
  the whole sequence: after the eight blocks of keys, the output at row r of query block qi, column e, is the
  softmax of that row's 8192 scores weighting column e of the projected values.

  The row's state after n blocks is the online-softmax recursion on the row; the recursion's scores and values are
  those of the whole sequence read in blocks of 1024; every score and value is finite because every input and weight
  is; and the recursion's quotient after all blocks is the softmax-weighted sum.
-/
import proofs.«141828_j90855738180063_2_alg».proof.Proof.Spec
import proofs.«141828_j90855738180063_2_alg».proof.Proof.AttnState
import proofs.«141828_j90855738180063_2_alg».proof.Proof.LibOnlineSoftmax
import proofs.«141828_j90855738180063_2_alg».proof.Proof.RowLaw
import proofs.«141828_j90855738180063_2_alg».proof.Proof.Scores
import Idealize.ShloMosaic.Lib.ValueIdx

noncomputable section

namespace Cert.KernelIdeal.AttnRows

open Idealize.ShloMosaic Idealize.ShloMosaic.ValueIdx Cert.KernelIdeal Cert.KernelIdeal.Gen Cert.KernelIdeal.Attn

open Cert.LibOnlineSoftmax

/-- The recursion's quotient after 8 blocks of 1024, with the 8192 terms indexed directly. -/
theorem online_8192 (S B : ℕ → EReal) (hS : ∀ t, S t ≠ ⊤ ∧ S t ≠ ⊥) (hB : ∀ t, B t ≠ ⊤ ∧ B t ≠ ⊥) :
    Ideal.div
        (state (fun j (k : Fin 1024) => S (j * 1024 + k.val)) (fun j (k : Fin 1024) => B (j * 1024 + k.val)) 8).2.2
        (state (fun j (k : Fin 1024) => S (j * 1024 + k.val)) (fun j (k : Fin 1024) => B (j * 1024 + k.val)) 8).2.1
      = ∑ t : Fin 8192,
          Ideal.div
            (Ideal.exp (S t.val - max ⊥ ((Finset.univ : Finset (Fin 8192)).fold max ⊥ (fun t => S t.val))))
            (0 + ∑ t' : Fin 8192, Ideal.exp (S t'.val
              - max ⊥ ((Finset.univ : Finset (Fin 8192)).fold max ⊥ (fun t => S t.val))))
            * B t.val :=
  online_eq_finite 8 1024 (by norm_num) (by norm_num) S B hS hB

/-- The specification's scores of a row are the whole sequence's row scores. -/
theorem spec_score (xb : ℕ → Vec Ideal S1024x1024 .f32) (w1 w2 : Vec Ideal S1024x1024 .bf16) (i : ℕ) (hi : i < 8192) :
    Cert.AttnSpec.score (fun i k => xb (i.val / 1024) (ix2 (⟨i.val % 1024, Nat.mod_lt _ (by norm_num)⟩ : Fin 1024) k))
        (fun a b => w1 (ix2 a b)) (fun a b => w2 (ix2 a b)) (((1 : ℝ) / 32 : ℝ) : EReal) ⟨i, hi⟩
      = fun j : Fin 8192 => rowScore xb w1 w2 i j.val :=
  funext fun _ => rfl

/-- The specification's projected values are the whole sequence's row values. -/
theorem spec_val (xb : ℕ → Vec Ideal S1024x1024 .f32) (w3 : Vec Ideal S1024x1024 .bf16) (j : Fin 8192) (e : Fin 1024) :
    Cert.AttnSpec.proj (fun i k => xb (i.val / 1024) (ix2 (⟨i.val % 1024, Nat.mod_lt _ (by norm_num)⟩ : Fin 1024) k))
        (fun a b => w3 (ix2 a b)) j e
      = rowVal xb w3 e j.val := rfl

theorem attn_block
    (xb : ℕ → Vec Ideal S1024x1024 .f32) (w1 w2 w3 : Vec Ideal S1024x1024 .bf16)
    (hx : ∀ n j, xb n j ≠ ⊤ ∧ xb n j ≠ ⊥) (hw1 : ∀ j, w1 j ≠ ⊤ ∧ w1 j ≠ ⊥) (hw2 : ∀ j, w2 j ≠ ⊤ ∧ w2 j ≠ ⊥) (hw3 : ∀ j, w3 j ≠ ⊤ ∧ w3 j ≠ ⊥)
    (qi : Fin 8) (r e : Fin 1024) :
    (stAfter (qBlk (xb qi.val) w1) (fun n => kBlk (xb n) w2) (fun n => vBlk (xb n) w3) 8).out (ValueIdx.ix2 r e)
      = Cert.AttnSpec.attn (fun i k => xb (i.val / 1024) (ValueIdx.ix2 (⟨i.val % 1024, Nat.mod_lt _ (by norm_num)⟩ : Fin 1024) k))
          (fun a b => w1 (ValueIdx.ix2 a b)) (fun a b => w2 (ValueIdx.ix2 a b)) (fun a b => w3 (ValueIdx.ix2 a b))
          (((1 : ℝ) / 32 : ℝ) : EReal) ⟨qi.val * 1024 + r.val, by have := qi.isLt; have := r.isLt; omega⟩ e := by
  rw [out_row]
  simp only [score_blk xb w1 w2 hx hw1 hw2, val_blk]
  refine (online_8192 (rowScore xb w1 w2 (qi.val * 1024 + r.val)) (rowVal xb w3 e)
    (rowScore_finite xb w1 w2 hx hw1 hw2 _) (rowVal_finite xb w3 hx hw3 e)).trans ?_
  unfold Cert.AttnSpec.attn Cert.AttnSpec.rowMax
  simp only [spec_score, spec_val]

end Cert.KernelIdeal.AttnRows

end
-- ==== Proof.StateChain.lean ====
/-
  A recursion over the 64 grid points, in order, that starts afresh at every multiple of 8 is, on each stretch of 8,
  the per-block recursion of the attention state: when the query block depends only on the point's quotient by 8 and
  the key and value blocks only on its remainder, the state at point qi * 8 + j is the state after the first j + 1
  blocks of keys against query block qi.
-/
import proofs.«141828_j90855738180063_2_alg».proof.Proof.AttnState

noncomputable section

namespace Cert.KernelIdeal.AttnRows

open Idealize.ShloMosaic Cert.KernelIdeal Cert.KernelIdeal.Gen Cert.KernelIdeal.Attn

variable {F : FTy → Type} [FloatOps F]

/-- The state at grid point qi * 8 + j is the state after j + 1 blocks of keys against query block qi. -/
theorem chain_eq (g : ℕ → St F) (q kb vb Q K W : ℕ → Vec F S1024x1024 .bf16)
    (h0 : g 0 = St.step (q 0) (kb 0) (vb 0) St.init)
    (hs : ∀ n, n + 1 < 64 → g (n + 1) = St.step (q (n + 1)) (kb (n + 1)) (vb (n + 1)) (if (n + 1) % 8 = 0 then St.init else g n))
    (hq : ∀ n, n < 64 → q n = Q (n / 8)) (hk : ∀ n, n < 64 → kb n = K (n % 8)) (hv : ∀ n, n < 64 → vb n = W (n % 8))
    (qi j : ℕ) (hqi : qi < 8) (hj : j < 8) : g (qi * 8 + j) = stAfter (Q qi) K W (j + 1) := by
  induction j with
  | zero =>
    rw [stAfter_succ, stAfter_zero]
    cases qi with
    | zero =>
      have e : 0 * 8 + 0 = 0 := rfl
      rw [e, h0, hq 0 (by omega), hk 0 (by omega), hv 0 (by omega), Nat.zero_div, Nat.zero_mod]
    | succ p =>
      have e : (p + 1) * 8 + 0 = (p * 8 + 7) + 1 := by omega
      have hb : p * 8 + 7 + 1 < 64 := by omega
      have h1 : (p * 8 + 7 + 1) / 8 = p + 1 := by omega
      have h2 : (p * 8 + 7 + 1) % 8 = 0 := by omega
      rw [e, hs (p * 8 + 7) hb, if_pos h2, hq _ hb, hk _ hb, hv _ hb, h1, h2]
  | succ j ih =>
    have ih := ih (by omega)
    have e : qi * 8 + (j + 1) = (qi * 8 + j) + 1 := by omega
    have hb : qi * 8 + j + 1 < 64 := by omega
    have h1 : (qi * 8 + j + 1) / 8 = qi := by omega
    have h2 : (qi * 8 + j + 1) % 8 = j + 1 := by omega
    have h3 : ¬ (qi * 8 + j + 1) % 8 = 0 := by omega
    rw [e, hs (qi * 8 + j) hb, if_neg h3, ih, stAfter_succ (Q qi) K W (j + 1), hq _ hb, hk _ hb, hv _ hb, h1, h2]

/-- In particular the state at the last point of stretch qi is the state after all eight blocks. -/
theorem chain_last (g : ℕ → St F) (q kb vb Q K W : ℕ → Vec F S1024x1024 .bf16)
    (h0 : g 0 = St.step (q 0) (kb 0) (vb 0) St.init)
    (hs : ∀ n, n + 1 < 64 → g (n + 1) = St.step (q (n + 1)) (kb (n + 1)) (vb (n + 1)) (if (n + 1) % 8 = 0 then St.init else g n))
    (hq : ∀ n, n < 64 → q n = Q (n / 8)) (hk : ∀ n, n < 64 → kb n = K (n % 8)) (hv : ∀ n, n < 64 → vb n = W (n % 8))
    (qi : ℕ) (hqi : qi < 8) : g (qi * 8 + 7) = stAfter (Q qi) K W 8 :=
  chain_eq g q kb vb Q K W h0 hs hq hk hv qi 7 hqi (by omega)

end Cert.KernelIdeal.AttnRows

end
-- ==== Proof.KI.Value.lean ====
/-
  The kernel program's result array, entry by entry, on finite inputs: the attention formula with the scale 1/32.

  Row `i` of the result lies in the block of query rows `i / 1024`; its block is stored at the last of that row's eight
  grid points as numerator over denominator of the carried state, which after eight blocks of keys is the per-row
  recursion over all 8192 keys. The blocks the attention region is handed are blocks of the projection region's three
  arrays, which are the projections of blocks of the input rows; the host's conversions of the weights change nothing
  at the extended reals.
-/
import proofs.«141828_j90855738180063_2_alg».proof.Proof.KI.Run
import proofs.«141828_j90855738180063_2_alg».proof.Proof.KI.Arr0
import proofs.«141828_j90855738180063_2_alg».proof.Proof.KI.Arr1
import proofs.«141828_j90855738180063_2_alg».proof.Proof.KI.Entry
import proofs.«141828_j90855738180063_2_alg».proof.Proof.AttnRows
import proofs.«141828_j90855738180063_2_alg».proof.Proof.StateChain

noncomputable section

namespace Cert.KernelIdeal.Val

open Cert.KernelIdeal Cert.KernelIdeal.Gen Cert.KernelIdeal.Fr Cert.KernelIdeal.Attn Cert.KernelIdeal.Arr Cert.KernelIdeal.Entry
open Cert.KernelIdeal.AttnRows
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Block `n` of 1024 rows of the input, as the projection region is handed it (zero past the eighth block). -/
def xb (n : ℕ) : Vec Ideal S1024x1024 .f32 :=
  if h : n < cfg0.N then iblk0 (V1 m ρ) c 0 ⟨n, h⟩ else fun _ => 0

/-- The three converted weight matrices. -/
def w1 : Vec Ideal S1024x1024 .bf16 := V1 m ρ c main_v0
def w2 : Vec Ideal S1024x1024 .bf16 := V1 m ρ c main_v1
def w3 : Vec Ideal S1024x1024 .bf16 := V1 m ρ c main_v2

theorem N0 : cfg0.N = 8 := N_0
theorem N1 : cfg1.N = 64 := N_1

/-- The query array the projection region leaves, at a row of block `qi`. -/
theorem qArr_at (qi : ℕ) (hqi : qi < 8) (r d : Fin 1024) (i : Fin 8192) (hi : i.val = qi * 1024 + r.val) :
    V2 m ρ c main_v3_0 (ix2 i d) = qBlk (xb m ρ c qi) (w1 m ρ c) (ix2 r d) := by
  have hq : qi < cfg0.N := by rw [N0]; exact hqi
  have h1 : (⟨i.val / 1024, blk_lt0' i⟩ : Fin cfg0.N) = ⟨qi, hq⟩ := Fin.ext (by have := r.isLt; show i.val / 1024 = qi; omega)
  have h2 : (⟨i.val % 1024, Nat.mod_lt _ (by decide)⟩ : Fin 1024) = r := Fin.ext (by have := r.isLt; show i.val % 1024 = r.val; omega)
  rw [V2_v3_0, arr0_4, h1, h2, iblk0_1_eq]
  unfold xb w1; rw [dif_pos hq]
theorem kArr_at (qi : ℕ) (hqi : qi < 8) (r d : Fin 1024) (i : Fin 8192) (hi : i.val = qi * 1024 + r.val) :
    V2 m ρ c main_v3_1 (ix2 i d) = kBlk (xb m ρ c qi) (w2 m ρ c) (ix2 r d) := by
  have hq : qi < cfg0.N := by rw [N0]; exact hqi
  have h1 : (⟨i.val / 1024, blk_lt0' i⟩ : Fin cfg0.N) = ⟨qi, hq⟩ := Fin.ext (by have := r.isLt; show i.val / 1024 = qi; omega)
  have h2 : (⟨i.val % 1024, Nat.mod_lt _ (by decide)⟩ : Fin 1024) = r := Fin.ext (by have := r.isLt; show i.val % 1024 = r.val; omega)
  rw [V2_v3_1, arr0_5, h1, h2, iblk0_2_eq]
  unfold xb w2; rw [dif_pos hq]
theorem vArr_at (qi : ℕ) (hqi : qi < 8) (r d : Fin 1024) (i : Fin 8192) (hi : i.val = qi * 1024 + r.val) :
    V2 m ρ c main_v3_2 (ix2 i d) = vBlk (xb m ρ c qi) (w3 m ρ c) (ix2 r d) := by
  have hq : qi < cfg0.N := by rw [N0]; exact hqi
  have h1 : (⟨i.val / 1024, blk_lt0' i⟩ : Fin cfg0.N) = ⟨qi, hq⟩ := Fin.ext (by have := r.isLt; show i.val / 1024 = qi; omega)
  have h2 : (⟨i.val % 1024, Nat.mod_lt _ (by decide)⟩ : Fin 1024) = r := Fin.ext (by have := r.isLt; show i.val % 1024 = r.val; omega)
  rw [V2_v3_2, arr0_6, h1, h2, iblk0_3_eq]
  unfold xb w3; rw [dif_pos hq]

/-- The blocks the attention region is handed at point `t`: the query block of its row, the key and value blocks of
    its place in the row. -/
theorem qblk_at (t : Fin cfg1.N) : (iblk1 (V2 m ρ) c 0 t : S1024x1024.Idx → EReal) = qBlk (xb m ρ c (t.val / 8)) (w1 m ρ c) := by
  have ht : t.val < 64 := lt_of_lt_of_eq t.isLt N1
  refine funext fun (y : S1024x1024.Idx) => ?_
  obtain ⟨p, q, rfl⟩ : ∃ (p q : Fin 1024), y = ix2 p q := ⟨y 0, y 1, eq_ix2 y⟩
  exact (iblk1_0_apply (V2 m ρ) c t p q).trans (qArr_at m ρ c (t.val / 8) (by omega) p q _ rfl)
theorem kblk_at (t : Fin cfg1.N) : (iblk1 (V2 m ρ) c 1 t : S1024x1024.Idx → EReal) = kBlk (xb m ρ c (t.val % 8)) (w2 m ρ c) := by
  have ht : t.val < 64 := lt_of_lt_of_eq t.isLt N1
  refine funext fun (y : S1024x1024.Idx) => ?_
  obtain ⟨p, q, rfl⟩ : ∃ (p q : Fin 1024), y = ix2 p q := ⟨y 0, y 1, eq_ix2 y⟩
  exact (iblk1_1_apply (V2 m ρ) c t p q).trans (kArr_at m ρ c (t.val % 8) (by omega) p q _ rfl)
theorem vblk_at (t : Fin cfg1.N) : (iblk1 (V2 m ρ) c 2 t : S1024x1024.Idx → EReal) = vBlk (xb m ρ c (t.val % 8)) (w3 m ρ c) := by
  have ht : t.val < 64 := lt_of_lt_of_eq t.isLt N1
  refine funext fun (y : S1024x1024.Idx) => ?_
  obtain ⟨p, q, rfl⟩ : ∃ (p q : Fin 1024), y = ix2 p q := ⟨y 0, y 1, eq_ix2 y⟩
  exact (iblk1_2_apply (V2 m ρ) c t p q).trans (vArr_at m ρ c (t.val % 8) (by omega) p q _ rfl)

/-- The carried state after the point of position `n`, over all positions. -/
def g (n : ℕ) : St Ideal := if h : n < cfg1.N then stS (V2 m ρ) c n h else St.init
def qs (n : ℕ) : Vec Ideal S1024x1024 .bf16 := if h : n < cfg1.N then iblk1 (V2 m ρ) c 0 ⟨n, h⟩ else fun _ => 0
def ks (n : ℕ) : Vec Ideal S1024x1024 .bf16 := if h : n < cfg1.N then iblk1 (V2 m ρ) c 1 ⟨n, h⟩ else fun _ => 0
def vs (n : ℕ) : Vec Ideal S1024x1024 .bf16 := if h : n < cfg1.N then iblk1 (V2 m ρ) c 2 ⟨n, h⟩ else fun _ => 0

/-- After the last point of row `qi` of the grid the carried state is the per-row recursion over all eight blocks. -/
theorem state_last (qi : ℕ) (hqi : qi < 8) (h : qi * 8 + 7 < cfg1.N) :
    stS (V2 m ρ) c (qi * 8 + 7) h
      = stAfter (qBlk (xb m ρ c qi) (w1 m ρ c)) (fun n => kBlk (xb m ρ c n) (w2 m ρ c)) (fun n => vBlk (xb m ρ c n) (w3 m ρ c)) 8 := by
  have hc := chain_last (g m ρ c) (qs m ρ c) (ks m ρ c) (vs m ρ c)
    (fun n => qBlk (xb m ρ c n) (w1 m ρ c)) (fun n => kBlk (xb m ρ c n) (w2 m ρ c)) (fun n => vBlk (xb m ρ c n) (w3 m ρ c))
    (by
      have h0 : 0 < cfg1.N := by rw [N1]; decide
      unfold g qs ks vs; rw [dif_pos h0, dif_pos h0, dif_pos h0, dif_pos h0]; rfl)
    (fun n hn => by
      have h1 : n + 1 < cfg1.N := by rw [N1]; exact hn
      have h2 : n < cfg1.N := Nat.lt_of_succ_lt h1
      unfold g qs ks vs; rw [dif_pos h1, dif_pos h1, dif_pos h1, dif_pos h1, dif_pos h2]; exact stS_succ (V2 m ρ) c n h1)
    (fun n hn => by
      have h1 : n < cfg1.N := by rw [N1]; exact hn
      unfold qs; rw [dif_pos h1]; exact qblk_at m ρ c ⟨n, h1⟩)
    (fun n hn => by
      have h1 : n < cfg1.N := by rw [N1]; exact hn
      unfold ks; rw [dif_pos h1]; exact kblk_at m ρ c ⟨n, h1⟩)
    (fun n hn => by
      have h1 : n < cfg1.N := by rw [N1]; exact hn
      unfold vs; rw [dif_pos h1]; exact vblk_at m ρ c ⟨n, h1⟩)
    qi hqi
  unfold g at hc; rw [dif_pos h] at hc; exact hc

/-- A block of input rows, entry by entry. -/
theorem xb_apply (n : ℕ) (hn : n < 8) (r k : Fin 1024) :
    xb m ρ c n (ix2 r k) = m ((c : Thread nD τ).loc main_arg0) (ix2 (⟨n * 1024 + r.val, by have := r.isLt; omega⟩ : Fin 8192) k) := by
  have hq : n < cfg0.N := by rw [N0]; exact hn
  unfold xb; rw [dif_pos hq, iblk0_0_apply, V1_arg0]

/-- The four argument arrays of core `c`, as arrays of extended reals. -/
abbrev aX : (⟨S8192x1024, .f32⟩ : BufTy).Contents (Elt Ideal) := m ((c : Thread nD τ).loc main_arg0)
abbrev a1 : (⟨S1024x1024, .f32⟩ : BufTy).Contents (Elt Ideal) := m ((c : Thread nD τ).loc main_arg1)
abbrev a2 : (⟨S1024x1024, .f32⟩ : BufTy).Contents (Elt Ideal) := m ((c : Thread nD τ).loc main_arg2)
abbrev a3 : (⟨S1024x1024, .f32⟩ : BufTy).Contents (Elt Ideal) := m ((c : Thread nD τ).loc main_arg3)

section Finite

variable (hX : ∀ j, aX m c j ≠ ⊤ ∧ aX m c j ≠ ⊥) (h1 : ∀ j, a1 m c j ≠ ⊤ ∧ a1 m c j ≠ ⊥)
  (h2 : ∀ j, a2 m c j ≠ ⊤ ∧ a2 m c j ≠ ⊥) (h3 : ∀ j, a3 m c j ≠ ⊤ ∧ a3 m c j ≠ ⊥)

include hX in
theorem xb_finite (n : ℕ) (j : S1024x1024.Idx) : xb m ρ c n j ≠ ⊤ ∧ xb m ρ c n j ≠ ⊥ := by
  by_cases hn : n < 8
  · obtain ⟨p, q, rfl⟩ : ∃ (p q : Fin 1024), j = ix2 p q := ⟨j 0, j 1, eq_ix2 j⟩
    rw [xb_apply m ρ c n hn]; exact hX _
  · have hq : ¬ n < cfg0.N := by rw [N0]; exact hn
    unfold xb; rw [dif_neg hq]; exact ⟨EReal.zero_ne_top, EReal.zero_ne_bot⟩

include hX h1 h2 h3 in
/-- THE KERNEL'S VALUE: entry (i, e) of the result array is the attention formula of the four argument arrays. -/
theorem kernel_value (i : Fin 8192) (e : Fin 1024) :
    (dat1 (V2 m ρ) c).arrAt 3 cfg1.N (ix2 i e)
      = Cert.AttnSpec.attn (fun a b => aX m c (ix2 a b)) (fun a b => a1 m c (ix2 a b))
          (fun a b => a2 m c (ix2 a b)) (fun a b => a3 m c (ix2 a b))
          (((1 : ℝ) / 32 : ℝ) : EReal) i e := by
  have hi : i.val < 8192 := i.isLt
  have hqi : i.val / 1024 < 8 := by omega
  have e1 := arr1_3 (V2 m ρ) c i e
  have e2 := state_last m ρ c (i.val / 1024) hqi (pt_lt1' i)
  have hb := attn_block (xb m ρ c) (w1 m ρ c) (w2 m ρ c) (w3 m ρ c) (xb_finite m ρ c hX)
    (fun j => by unfold w1; rw [V1_v0]; exact h1 j) (fun j => by unfold w2; rw [V1_v1]; exact h2 j) (fun j => by unfold w3; rw [V1_v2]; exact h3 j)
    (⟨i.val / 1024, hqi⟩ : Fin 8) (⟨i.val % 1024, Nat.mod_lt _ (by decide)⟩ : Fin 1024) e
  have hx : (fun (a : Fin 8192) (k : Fin 1024) => xb m ρ c (a.val / 1024) (ix2 (⟨a.val % 1024, Nat.mod_lt _ (by norm_num)⟩ : Fin 1024) k))
      = fun a b => aX m c (ix2 a b) := by
    funext a k
    have ha : a.val < 8192 := a.isLt
    have hfin : ∀ h, (⟨a.val / 1024 * 1024 + a.val % 1024, h⟩ : Fin 8192) = a := fun h => Fin.ext (Nat.div_add_mod' a.val 1024)
    rw [xb_apply m ρ c (a.val / 1024) (by omega)]
    show aX m c (ix2 (⟨a.val / 1024 * 1024 + a.val % 1024, _⟩ : Fin 8192) k) = _
    rw [hfin]
  have hw1 : (fun (a b : Fin 1024) => w1 m ρ c (ix2 a b)) = fun a b => a1 m c (ix2 a b) := by
    funext a b; unfold w1; rw [V1_v0]
  have hw2 : (fun (a b : Fin 1024) => w2 m ρ c (ix2 a b)) = fun a b => a2 m c (ix2 a b) := by
    funext a b; unfold w2; rw [V1_v1]
  have hw3 : (fun (a b : Fin 1024) => w3 m ρ c (ix2 a b)) = fun a b => a3 m c (ix2 a b) := by
    funext a b; unfold w3; rw [V1_v2]
  have hfi : ∀ h, (⟨i.val / 1024 * 1024 + i.val % 1024, h⟩ : Fin 8192) = i := fun h => Fin.ext (Nat.div_add_mod' i.val 1024)
  rw [hx, hw1, hw2, hw3] at hb
  refine e1.trans ?_
  rw [e2]
  refine hb.trans ?_
  show Cert.AttnSpec.attn _ _ _ _ _ (⟨i.val / 1024 * 1024 + i.val % 1024, _⟩ : Fin 8192) e = _
  rw [hfi]

end Finite

end Cert.KernelIdeal.Val

end
-- ==== Proof.RefScale.lean ====
/-
  The reference's score scale, read at the ideal instance: the scalar 1 / sqrt(1024) is the real 1/32.
  The word 0x44800000 denotes 1024 = 2^10, its square root is 32 (32 * 32 = 1024), the word 0x3F800000
  denotes 1, and the quotient of 1 by the nonzero real 32 is the product with its reciprocal.
-/
import proofs.«141828_j90855738180063_2_alg».proof.Proof.Gen.ReferenceIdeal.Read
import Idealize.ShloMosaic.Lib.IdealHost

noncomputable section

namespace Cert.RefSpec

open Idealize.ShloMosaic Cert.ReferenceIdeal

/-- The f32 word `0x44800000` denotes the real 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 * 32 by norm_num]
  exact Real.sqrt_mul_self (by norm_num)

/-- The reference's scale `1 / sqrt 1024` is the real `1 / 32`. -/
theorem scale_eq :
    Cert.ReferenceIdeal.Read.val_main_v6 (F := Ideal) ValueIdx.ix0 = (((1 : ℝ) / 32 : ℝ) : EReal) := by
  rw [Read.val_main_v6_apply, Read.val_main_v5_apply, Read.val_main_cst_apply, Read.val_main_cst_0_apply]
  simp only [Ideal.hostDivf_def, Ideal.hostUnary_sqrt_def, Ideal.ofBits_def]
  rw [ofBits_1024, sqrt_1024, Ideal.ofBits_one_f32, Ideal.div_coe (by norm_num), one_mul]

end Cert.RefSpec

end
-- ==== Proof.RefProj.lean ====
/-
  The reference's projections and scores, entry by entry: the three products `x · W` are the specification's
  `proj`, the transposed key projection read at (d, j) is the key projection at (j, d), the product of the
  query projection with it is the sum over the features, and the scaled product is the specification's `score`.
-/
import proofs.«141828_j90855738180063_2_alg».proof.Proof.Gen.ReferenceIdeal.Read
import proofs.«141828_j90855738180063_2_alg».proof.Proof.Spec
import proofs.«141828_j90855738180063_2_alg».proof.Proof.RefScale

noncomputable section

namespace Cert.RefSpec

open Idealize.ShloMosaic Idealize.ShloMosaic.ValueIdx Cert.ReferenceIdeal Cert.AttnSpec

/-! ### The index functions of the products, at an index given by its coordinates -/

theorem lidx_v0 (i : Fin 8192) (d k : Fin 1024) : Read.lidx_main_v0 (ix2 i d) k = ix2 i k :=
  funext fun a => by match a with | ⟨0, _⟩ => rfl | ⟨1, _⟩ => rfl
theorem ridx_v0 (i : Fin 8192) (d k : Fin 1024) : Read.ridx_main_v0 (ix2 i d) k = ix2 k d :=
  funext fun a => by match a with | ⟨0, _⟩ => rfl | ⟨1, _⟩ => rfl
theorem lidx_v1 (i : Fin 8192) (d k : Fin 1024) : Read.lidx_main_v1 (ix2 i d) k = ix2 i k :=
  funext fun a => by match a with | ⟨0, _⟩ => rfl | ⟨1, _⟩ => rfl
theorem ridx_v1 (i : Fin 8192) (d k : Fin 1024) : Read.ridx_main_v1 (ix2 i d) k = ix2 k d :=
  funext fun a => by match a with | ⟨0, _⟩ => rfl | ⟨1, _⟩ => rfl
theorem lidx_v2 (i : Fin 8192) (d k : Fin 1024) : Read.lidx_main_v2 (ix2 i d) k = ix2 i k :=
  funext fun a => by match a with | ⟨0, _⟩ => rfl | ⟨1, _⟩ => rfl
theorem ridx_v2 (i : Fin 8192) (d k : Fin 1024) : Read.ridx_main_v2 (ix2 i d) k = ix2 k d :=
  funext fun a => by match a with | ⟨0, _⟩ => rfl | ⟨1, _⟩ => rfl
theorem idx_v3 (d : Fin 1024) (j : Fin 8192) : Read.idx_main_v3 (ix2 d j) = ix2 j d :=
  funext fun a => by match a with | ⟨0, _⟩ => rfl | ⟨1, _⟩ => rfl
theorem lidx_v4 (i j : Fin 8192) (k : Fin 1024) : Read.lidx_main_v4 (ix2 i j) k = ix2 i k :=
  funext fun a => by match a with | ⟨0, _⟩ => rfl | ⟨1, _⟩ => rfl
theorem ridx_v4 (i j : Fin 8192) (k : Fin 1024) : Read.ridx_main_v4 (ix2 i j) k = ix2 k j :=
  funext fun a => by match a with | ⟨0, _⟩ => rfl | ⟨1, _⟩ => rfl

variable (x0 : (⟨S8192x1024, .f32⟩ : BufTy).Contents (Elt Ideal))
  (x1 x2 x3 : (⟨S1024x1024, .f32⟩ : BufTy).Contents (Elt Ideal))

/-- The query projection. -/
theorem v0_eq (i : Fin 8192) (d : Fin 1024) :
    Read.val_main_v0 (F := Ideal) x0 x1 (ix2 i d)
      = proj (fun a b => x0 (ix2 a b)) (fun a b => x1 (ix2 a b)) i d := by
  rw [Read.val_main_v0_apply]
  exact Finset.sum_congr rfl fun k _ => by rw [lidx_v0, ridx_v0]

/-- The key projection. -/
theorem v1_eq (j : Fin 8192) (d : Fin 1024) :
    Read.val_main_v1 (F := Ideal) x0 x2 (ix2 j d)
      = proj (fun a b => x0 (ix2 a b)) (fun a b => x2 (ix2 a b)) j d := by
  rw [Read.val_main_v1_apply]
  exact Finset.sum_congr rfl fun k _ => by rw [lidx_v1, ridx_v1]

/-- The value projection. -/
theorem v2_eq (j : Fin 8192) (e : Fin 1024) :
    Read.val_main_v2 (F := Ideal) x0 x3 (ix2 j e)
      = proj (fun a b => x0 (ix2 a b)) (fun a b => x3 (ix2 a b)) j e := by
  rw [Read.val_main_v2_apply]
  exact Finset.sum_congr rfl fun k _ => by rw [lidx_v2, ridx_v2]

/-- The transposed key projection at (d, j) is the key projection at (j, d). -/
theorem v3_eq (d : Fin 1024) (j : Fin 8192) :
    Read.val_main_v3 (F := Ideal) x0 x2 (ix2 d j)
      = proj (fun a b => x0 (ix2 a b)) (fun a b => x2 (ix2 a b)) j d := by
  rw [Read.val_main_v3_apply, idx_v3, v1_eq]

/-- The unscaled score: the sum over the features of query times key. -/
theorem v4_eq (i j : Fin 8192) :
    Read.val_main_v4 (F := Ideal) x0 x1 x2 (ix2 i j)
      = ∑ d : Fin 1024, proj (fun a b => x0 (ix2 a b)) (fun a b => x1 (ix2 a b)) i d
          * proj (fun a b => x0 (ix2 a b)) (fun a b => x2 (ix2 a b)) j d := by
  rw [Read.val_main_v4_apply]
  exact Finset.sum_congr rfl fun k _ => by rw [lidx_v4, ridx_v4, v0_eq, v3_eq]

/-- The broadcast scale is `1 / 32` at every entry. -/
theorem v7_eq (i j : Fin 8192) :
    Read.val_main_v7 (F := Ideal) (ix2 i j) = (((1 : ℝ) / 32 : ℝ) : EReal) :=
  (Read.val_main_v7_apply (F := Ideal) (ix2 i j)).trans scale_eq

/-- The scaled score is the specification's. -/
theorem v8_eq (i j : Fin 8192) :
    Read.val_main_v8 (F := Ideal) x0 x1 x2 (ix2 i j)
      = score (fun a b => x0 (ix2 a b)) (fun a b => x1 (ix2 a b)) (fun a b => x2 (ix2 a b))
          (((1 : ℝ) / 32 : ℝ) : EReal) i j := by
  rw [Read.val_main_v8_apply, v4_eq, v7_eq]
  rfl

end Cert.RefSpec

end
-- ==== Proof.RefRowMax.lean ====
/-
  A row's maximum as the host computes it: the reduction with a maximum body over the second axis of an
  8192 by 8192 array, from an initial value that is -∞, is at row `i` the fold of `max` from -∞ over the
  row's entries. Stated over any array, so that no particular one is ever opened.
-/
import proofs.«141828_j90855738180063_2_alg».proof.ReferenceIdeal
import Idealize.ShloMosaic.PureOps.Reduce
import Idealize.ShloMosaic.PureOps.Ideal.Laws
import Idealize.ShloMosaic.Lib.ValueIdx

noncomputable section

namespace Cert.RefSpec

open Idealize.ShloMosaic Idealize.ShloMosaic.ValueIdx Cert.ReferenceIdeal

/-- The f32 word `0xFF800000` denotes -∞. -/
theorem ofBits_neg_inf : Ideal.ofBits .f32 0xFF800000#32 = ⊥ := by
  simp [Ideal.ofBits, Ideal.ieee]

/-- The row index `i` with the column `k` put back on the reduced axis is (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The host's maximum over a row, from -∞: the fold of `max` over the row's entries. -/
theorem reduce_max_row (y : (⟨S8192x8192, .f32⟩ : BufTy).Contents (Elt Ideal))
    (init : (⟨S_, .f32⟩ : BufTy).Contents (Elt Ideal)) (h' : S8192x8192.ReducesTo [1] S8192) (hu : 0 < S_.numel)
    (hinit : init (Shape.Idx.first hu) = ⊥) (i : Fin 8192) :
    Host.reduce (FloatOps.maximumf (F := Ideal) (φ := .f32)) y init h' hu (ix1 i)
      = (Finset.univ : Finset (Fin 8192)).fold max ⊥ (fun j => y (ix2 i j)) := by
  have h : S8192x8192.Reduces [1] S8192 := by decide
  rw [Host.reduce_eq_fold_single (FloatOps.maximumf (F := Ideal) (φ := .f32)) y init h' h hu, hinit]
  have hf : (y ∘ h.lift (ix1 i)) = fun k : Fin 8192 => y (ix2 i k) :=
    funext fun k => congrArg y (lift_row h i k)
  exact congrArg (fun f => Finset.fold max (⊥ : EReal) f (Finset.univ : Finset (Fin 8192))) hf

end Cert.RefSpec

end
-- ==== Proof.RefSpec.lean ====
/-
  The reference program is the specification, entry by entry: with the scores read as the specification's
  (the scale being the real 1/32), the row maximum is the specification's `rowMax`, the shifted scores'
  exponentials divided by their row sum (from 0) are its weights, and the last product with the value
  projection is its sum over the key rows. No finiteness is needed: every step is the same extended-real
  expression on both sides.
-/
import proofs.«141828_j90855738180063_2_alg».proof.Proof.Gen.ReferenceIdeal.Read
import proofs.«141828_j90855738180063_2_alg».proof.Proof.Spec
import proofs.«141828_j90855738180063_2_alg».proof.Proof.RefProj
import proofs.«141828_j90855738180063_2_alg».proof.Proof.RefRowMax

noncomputable section

namespace Cert.RefSpec

open Idealize.ShloMosaic Idealize.ShloMosaic.ValueIdx Cert.ReferenceIdeal Cert.AttnSpec

/-- The specification's scores of the reference's arguments, at the scale `1 / 32`. -/
abbrev sc (x0 : (⟨S8192x1024, .f32⟩ : BufTy).Contents (Elt Ideal))
    (x1 x2 : (⟨S1024x1024, .f32⟩ : BufTy).Contents (Elt Ideal)) (i j : Fin 8192) : EReal :=
  score (fun a b => x0 (ix2 a b)) (fun a b => x1 (ix2 a b)) (fun a b => x2 (ix2 a b))
    (((1 : ℝ) / 32 : ℝ) : EReal) i j

/-! ### The index functions of the row operations, at an index given by its coordinates -/

theorem idx_v12_v13 (i j : Fin 8192) : Read.idx_main_v12 (Read.idx_main_v13 (ix2 i j)) = ix1 i :=
  funext fun a => by match a with | ⟨0, _⟩ => rfl
theorem idx_v16 (i k : Fin 8192) : Read.idx_main_v16 (ix1 i) k = ix2 i k :=
  funext fun a => by match a with | ⟨0, _⟩ => rfl | ⟨1, _⟩ => rfl
theorem idx_v17_v18 (i j : Fin 8192) : Read.idx_main_v17 (Read.idx_main_v18 (ix2 i j)) = ix1 i :=
  funext fun a => by match a with | ⟨0, _⟩ => rfl
theorem lidx_v20 (i k : Fin 8192) (e : Fin 1024) : Read.lidx_main_v20 (ix2 i e) k = ix2 i k :=
  funext fun a => by match a with | ⟨0, _⟩ => rfl | ⟨1, _⟩ => rfl
theorem ridx_v20 (i k : Fin 8192) (e : Fin 1024) : Read.ridx_main_v20 (ix2 i e) k = ix2 k e :=
  funext fun a => by match a with | ⟨0, _⟩ => rfl | ⟨1, _⟩ => rfl

variable (x0 : (⟨S8192x1024, .f32⟩ : BufTy).Contents (Elt Ideal))
  (x1 x2 x3 : (⟨S1024x1024, .f32⟩ : BufTy).Contents (Elt Ideal))

/-- The reduction over a row of the scores, from -∞, is the fold of `max` over the row. -/
theorem v9_eq (i : Fin 8192) :
    Read.val_main_v9 (F := Ideal) x0 x1 x2 (ix1 i)
      = (Finset.univ : Finset (Fin 8192)).fold max ⊥ (sc x0 x1 x2 i) := by
  unfold Read.val_main_v9
  refine (reduce_max_row _ _ _ _ ((Read.val_main_cst_1_apply (F := Ideal) _).trans ofBits_neg_inf) i).trans ?_
  exact congrArg (fun f => Finset.fold max (⊥ : EReal) f (Finset.univ : Finset (Fin 8192)))
    (funext fun j => v8_eq x0 x1 x2 i j)

/-- The broadcast -∞. -/
theorem v10_eq (i : Fin 8192) : Read.val_main_v10 (F := Ideal) (ix1 i) = ⊥ :=
  (Read.val_main_v10_apply (F := Ideal) (ix1 i)).trans
    ((Read.val_main_cst_2_apply (F := Ideal) _).trans ofBits_neg_inf)

/-- The row maximum, joined with -∞ once more. -/
theorem v11_eq (i : Fin 8192) :
    Read.val_main_v11 (F := Ideal) x0 x1 x2 (ix1 i) = rowMax (sc x0 x1 x2 i) := by
  rw [Read.val_main_v11_apply, v10_eq, v9_eq]
  rfl

/-- The row maximum broadcast along the row. -/
theorem v13_eq (i j : Fin 8192) :
    Read.val_main_v13 (F := Ideal) x0 x1 x2 (ix2 i j) = rowMax (sc x0 x1 x2 i) := by
  rw [Read.val_main_v13_apply, Read.val_main_v12_apply, idx_v12_v13, v11_eq]

/-- The exponential of the shifted score. -/
theorem v15_eq (i j : Fin 8192) :
    Read.val_main_v15 (F := Ideal) x0 x1 x2 (ix2 i j)
      = Ideal.exp (sc x0 x1 x2 i j - rowMax (sc x0 x1 x2 i)) := by
  rw [Read.val_main_v15_apply, Read.val_main_v14_apply, v8_eq, v13_eq]
  rfl

/-- The row sum of the exponentials, from 0. -/
theorem v16_eq (i : Fin 8192) :
    Read.val_main_v16 (F := Ideal) x0 x1 x2 (ix1 i)
      = 0 + ∑ j : Fin 8192, Ideal.exp (sc x0 x1 x2 i j - rowMax (sc x0 x1 x2 i)) := by
  rw [Read.val_main_v16_apply]
  refine congrArg₂ (· + ·) ((Read.val_main_cst_3_apply (F := Ideal) _).trans Ideal.ofBits_zero_f32)
    (Finset.sum_congr rfl fun k _ => ?_)
  rw [idx_v16, v15_eq]

/-- The row sum broadcast along the row. -/
theorem v18_eq (i j : Fin 8192) :
    Read.val_main_v18 (F := Ideal) x0 x1 x2 (ix2 i j)
      = 0 + ∑ j' : Fin 8192, Ideal.exp (sc x0 x1 x2 i j' - rowMax (sc x0 x1 x2 i)) := by
  rw [Read.val_main_v18_apply, Read.val_main_v17_apply, idx_v17_v18, v16_eq]

/-- The softmax weight. -/
theorem v19_eq (i j : Fin 8192) :
    Read.val_main_v19 (F := Ideal) x0 x1 x2 (ix2 i j)
      = Ideal.div (Ideal.exp (sc x0 x1 x2 i j - rowMax (sc x0 x1 x2 i)))
          (0 + ∑ j' : Fin 8192, Ideal.exp (sc x0 x1 x2 i j' - rowMax (sc x0 x1 x2 i))) := by
  rw [Read.val_main_v19_apply, v15_eq, v18_eq]
  rfl

/-- The reference's result is the specification's attention of its arguments, at the scale `1 / 32`. -/
theorem ref_eq (i : Fin 8192) (e : Fin 1024) :
    Cert.ReferenceIdeal.Read.val_main_v20 (F := Ideal) x0 x1 x2 x3 (ValueIdx.ix2 i e)
      = Cert.AttnSpec.attn (fun a b => x0 (ValueIdx.ix2 a b)) (fun a b => x1 (ValueIdx.ix2 a b))
          (fun a b => x2 (ValueIdx.ix2 a b)) (fun a b => x3 (ValueIdx.ix2 a b))
          (((1 : ℝ) / 32 : ℝ) : EReal) i e := by
  rw [Read.val_main_v20_apply]
  exact Finset.sum_congr rfl fun k _ => by rw [lidx_v20, ridx_v20, v19_eq, v2_eq]

end Cert.RefSpec

end
-- ==== Proof.PreFinite.lean ====
/-
  The precondition read back: when every entry of the four arguments has an absolute value below +∞
  (the printed predicate's four `all`s, joined by `and`, answer 1), every entry is a real number:
  it is neither +∞ nor -∞.
-/
import proofs.«141828_j90855738180063_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic

/-- The shape with no axis has one index. -/
instance subsingleton_scalar_idx : Subsingleton Cert.Pre_finite_inputs.S_.Idx :=
  ⟨fun a b => funext fun d => d.elim0⟩

/-- The f32 word `0x7F800000` denotes +∞. -/
theorem ofBits_inf : Ideal.ofBits .f32 0x7F800000#32 = ⊤ := by
  simp [Ideal.ofBits, Ideal.ieee]

/-- An extended real whose absolute value `max x (-x)` is strictly below +∞ is a real. -/
theorem finite_of_abs_lt (x : EReal)
    (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | coe r => exact ⟨EReal.coe_ne_top r, EReal.coe_ne_bot r⟩
  | top => simp [Ideal.cmp] at h

/-- One `all(|a| < +∞)` that answers 1 makes every entry of `a` a real. -/
theorem finite_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf a) (broadcastInDim s ![] hb (constant (F := Ideal) Cert.Pre_finite_inputs.S_ .f32 0x7F800000#32)))
          init hr hu ValueIdx.ix0 = 1#1)
    (j : s.Idx) : a j ≠ ⊤ ∧ a j ≠ ⊥ :=
  finite_of_abs_lt (a j) (Host.reduce_andi_all _ init hr hu ValueIdx.ix0 e j)

/-- The precondition `finite_inputs` at the ideal instance: every entry of every argument is a real. -/
theorem finite_of_pre [hP : Cert.Pre_finite_inputs.Facts]
    (a0 : (⟨Cert.Pre_finite_inputs.S8192x1024, .f32⟩ : BufTy).Contents (Elt Ideal))
    (a1 a2 a3 : (⟨Cert.Pre_finite_inputs.S1024x1024, .f32⟩ : BufTy).Contents (Elt Ideal))
    (h : Cert.Pre_finite_inputs.fn (F := Ideal) a0 a1 a2 a3 = fun _ => 1#1) :
    (∀ j, a0 j ≠ ⊤ ∧ a0 j ≠ ⊥) ∧ (∀ j, a1 j ≠ ⊤ ∧ a1 j ≠ ⊥) ∧ (∀ j, a2 j ≠ ⊤ ∧ a2 j ≠ ⊥)
      ∧ (∀ j, a3 j ≠ ⊤ ∧ a3 j ≠ ⊥) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨finite_of_all a0 _ _ _ _ h0', finite_of_all a1 _ _ _ _ h1, finite_of_all a2 _ _ _ _ h2,
    finite_of_all a3 _ _ _ _ h3⟩

end Cert.Finite

end
-- ==== Proof.lean ====
/-
  Single-head attention as two kernels (the three projections, then an online softmax over blocks of keys) against
  the plain formula: the two idealized programs compute the same array on finite inputs.

  The frames of the two kernel programs come from one run each: the host's three conversions, the projection region
  and the attention region, whose scratch buffers carry the running maximum, denominator and numerator along a row
  of the grid. The reference's frame is its run with the result dropped. The idealization rewrote nothing. For the
  values: the kernel's output block of a block of query rows is numerator over denominator after eight blocks of keys,
  which is the softmax-weighted sum of the value rows (the online recursion's law, on finite scores), the scale 1/32
  moved from the query factor to the score; the reference's array is the same sum, its scale 1/sqrt 1024 = 1/32.
-/
import proofs.«141828_j90855738180063_2_alg».proof.Defs
import proofs.«141828_j90855738180063_2_alg».proof.Proof.Gen.Kernel
import proofs.«141828_j90855738180063_2_alg».proof.Proof.Gen.KernelIdeal
import proofs.«141828_j90855738180063_2_alg».proof.Proof.Gen.ReferenceIdeal
import proofs.«141828_j90855738180063_2_alg».proof.Proof.Gen.Pre_finite_inputs
import proofs.«141828_j90855738180063_2_alg».proof.Proof.Gen.ReferenceIdeal.Run
import proofs.«141828_j90855738180063_2_alg».proof.Proof.K.Run
import proofs.«141828_j90855738180063_2_alg».proof.Proof.KI.Run
import proofs.«141828_j90855738180063_2_alg».proof.Proof.Gen.ReferenceIdeal.Read
import proofs.«141828_j90855738180063_2_alg».proof.Proof.KI.Value
import proofs.«141828_j90855738180063_2_alg».proof.Proof.RefSpec
import proofs.«141828_j90855738180063_2_alg».proof.Proof.PreFinite
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Fr.frame m ρ

theorem frame_ki [Cert.KernelIdeal.Facts] [Cert.Pre_finite_inputs.Facts] : Cert.frame_KernelIdeal :=
  fun m ρ _ => Cert.KernelIdeal.Fr.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite inputs the kernel program's result array is the attention formula with the scale 1/32, entry by entry,
    and so is the reference's; the two runs start from memories that agree on the arguments. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => Cert.ReferenceIdeal.Read.val_main_v20 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Fr.result m ρ)
    obtain ⟨f0, f1, f2, f3⟩ := Cert.Finite.finite_of_pre _ _ _ _ (hpre c)
    refine funext fun (j : Cert.KernelIdeal.S8192x1024.Idx) => ?_
    obtain ⟨a, b, rfl⟩ : ∃ (a : Fin 8192) (b : Fin 1024), j = ValueIdx.ix2 a b := ⟨j 0, j 1, ValueIdx.eq_ix2 j⟩
    exact (Cert.KernelIdeal.Val.kernel_value m ρ c f0 f1 f2 f3 a b).trans (Cert.RefSpec.ref_eq _ _ _ _ a b).symm
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v20_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
